-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S256x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S800000 32) (main_arg2 : IVec S800000 32) (main_arg3 : FVec F S50000x128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S25000x128 : Shape := ⟨2, ![25000, 128]⟩
abbrev S50000 : Shape := ⟨1, ![50000]⟩
abbrev S50000x1 : Shape := ⟨2, ![50000, 1]⟩
abbrev S5000x1 : Shape := ⟨2, ![5000, 1]⟩

abbrev nBuf : Space → Nat
  | .hbm => 50
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S50000x128, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S25000x128, .f32⟩
  | .hbm, ⟨23, _⟩ => ⟨S800000x1, .i32⟩
  | .hbm, ⟨24, _⟩ => ⟨S25000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S128x128, .f32⟩
  | .hbm, ⟨45, _⟩ => ⟨S128x128, .f32⟩
  | .hbm, ⟨46, _⟩ => ⟨S1x128, .f32⟩
  | .hbm, ⟨47, _⟩ => ⟨S1x128, .f32⟩
  | .hbm, ⟨48, _⟩ => ⟨S50000x1, .f32⟩
  | .hbm, ⟨49, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem8_0 : DmaSem sig := 18
abbrev cc1_sem9_0 : DmaSem sig := 19
abbrev cc1_sem9_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S25000x128 : S_.BroadcastsInDim S25000x128 (![] : Fin 0 → Fin S25000x128.rank)
  bcast_S_S50000 : S_.BroadcastsInDim S50000 (![] : Fin 0 → Fin S50000.rank)
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  shapeCasts_S50000_S50000x1 : S50000.ShapeCasts S50000x1
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S25000x128_S800000x1_S800000x128_1_0_0_1_wf : ScatterDims.WF S25000x128 S800000x1 S800000x128 [1] [0] [0] 1
  scatter_S50000_S800000x1_S800000_n_0_0_1_wf : ScatterDims.WF S50000 S800000x1 S800000 [] [0] [0] 1
  gather_S25000x128_S800000x1_S800000x128_1_0_n_n_0_1_1128_wf : GatherDims.WF S25000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S50000x128.size a
  hwx1_9 : ∀ i : grid1.Coords, EltTy.bits .f32 = 32 ∨ (Rect.block (s := S50000x128) S5000x128.size (cc1_transform_9 i) (hinb1_9 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S25000x128_S800000x1_S800000x128_1_0_0_1 : ScatterDims S25000x128 S800000x1 S800000x128 where
  updateWindowDims := [1]
  insertedWindowDims := [0]
  scatterDimsToOperandDims := [0]
  indexVectorDim := 1
  wf := scatter_S25000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S25000x128_S800000x1_S800000x128_1_0_n_n_0_1_1128 : GatherDims S25000x128 S800000x1 S800000x128 where
  offsetDims := [1]
  collapsedSliceDims := [0]
  operandBatchingDims := []
  startIndicesBatchingDims := []
  startIndexMap := [0]
  indexVectorDim := 1
  sliceSizes := ![1, 128]
  wf := gather_S25000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S5000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v29) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S25000x128 : Shape := ⟨2, ![25000, 128]⟩
abbrev S800000x256 : Shape := ⟨2, ![800000, 256]⟩

abbrev nBuf : Space → Nat
  | .hbm => 65
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S50000x128, .f32⟩
  | .hbm, ⟨11, _⟩ => ⟨S1x128, .f32⟩
  | .hbm, ⟨12, _⟩ => ⟨S50000x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S25000x128, .f32⟩
  | .hbm, ⟨25, _⟩ => ⟨S800000x1, .i32⟩
  | .hbm, ⟨26, _⟩ => ⟨S25000x128, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S800000x256, .f32⟩
  | .hbm, ⟨46, _⟩ => ⟨S800000x128, .f32⟩
  | .hbm, ⟨47, _⟩ => ⟨S1x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S25000x128 : S_.BroadcastsInDim S25000x128 (![] : Fin 0 → Fin S25000x128.rank)
  concatenates_S800000x128_S800000x128_S800000x256_d1 : Shape.Concatenates [S800000x128, S800000x128] S800000x256 1
  bcast_S1x128_S800000x128_0_1 : S1x128.BroadcastsInDim S800000x128 (![0, 1] : Fin 2 → Fin S800000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S25000x128_S800000x1_S800000x128_1_0_0_1_wf : ScatterDims.WF S25000x128 S800000x1 S800000x128 [1] [0] [0] 1
  gather_S25000x128_S800000x1_S800000x128_1_0_n_n_0_1_1128_wf : GatherDims.WF S25000x128 S800000x1 S800000x128 [1] [0] [] [0] [] 1 ![1, 128]
  dot_S800000x256_S256x128_S800000x128_1_0_0_1_n_n_wf : DotDims.WF S800000x256 S256x128 S800000x128 [1] [0] [0] [1] [] []
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S25000x128_S800000x1_S800000x128_1_0_0_1 : ScatterDims S25000x128 S800000x1 S800000x128 where
  updateWindowDims := [1]
  insertedWindowDims := [0]
  scatterDimsToOperandDims := [0]
  indexVectorDim := 1
  wf := scatter_S25000x128_S800000x1_S800000x128_1_0_0_1_wf
def gather_S25000x128_S800000x1_S800000x128_1_0_n_n_0_1_1128 : GatherDims S25000x128 S800000x1 S800000x128 where
  offsetDims := [1]
  collapsedSliceDims := [0]
  operandBatchingDims := []
  startIndicesBatchingDims := []
  startIndexMap := [0]
  indexVectorDim := 1
  sliceSizes := ![1, 128]
  wf := gather_S25000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The kernel program's run with its result named.

  @main is four segments: the host operations before the first region, the dense layer's region, the host operations
  between the regions (the gathers and scatter-adds over the incidence list), and the fused region. Every weakly fair
  execution ends with each unscoped buffer at the contents the segments' fold `Gen.W4` gives it; read at the result
  buffer this names the program's result, and read at the arguments it gives them back unchanged.
-/
import proofs.«164495_j4355096839068_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds what the fold of
    the four segments leaves there, and the ten arguments are as launched. -/
theorem run_result : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Run

end
-- ==== Proof.Layers.lean ====
/-
  The layers of the set convolution as whole-array functions on the extended reals, index by index.

  A dense layer sends row `p` of `x` to `x[p,:] · w + b`, the bias stored as a `[1, 128]` row. The vertex update
  mixes, with weight one half each, the aggregated message `deg[p] · (x[p,:] · w2a + b2) + s[p,:] · w2b` and the
  residual `x0[p,:]`; the fused stage is that mix followed by one more dense layer.
-/
import Idealize.ShloMosaic.PureOps.Ideal
import Idealize.ShloMosaic.Lib.ValueIdx

noncomputable section

namespace Cert.SetConv

open Idealize.ShloMosaic Idealize.ShloMosaic.ValueIdx

/-- One half, as the binary word both programs print it. -/
abbrev half : EReal := Ideal.ofBits .f32 0x3F000000#32

/-- `x · w + b` on every one of the 50000 rows; `b` is a `[1, 128]` row. -/
def dense (x : FVec Ideal ⟨2, ![50000, 128]⟩ .f32) (w : FVec Ideal ⟨2, ![128, 128]⟩ .f32)
    (b : FVec Ideal ⟨2, ![1, 128]⟩ .f32) : FVec Ideal ⟨2, ![50000, 128]⟩ .f32 :=
  fun i => (∑ k : Fin 128, x (ix2 (i 0) k) * w (ix2 k (i 1))) + b (ix2 0 (i 1))

/-- The aggregated message at a vertex: `deg · (x · w2a + b2) + s · w2b`, the degree a `[50000, 1]` column. -/
def message (x : FVec Ideal ⟨2, ![50000, 128]⟩ .f32) (w2a : FVec Ideal ⟨2, ![128, 128]⟩ .f32)
    (b2 : FVec Ideal ⟨2, ![1, 128]⟩ .f32) (deg : FVec Ideal ⟨2, ![50000, 1]⟩ .f32)
    (s : FVec Ideal ⟨2, ![50000, 128]⟩ .f32) (w2b : FVec Ideal ⟨2, ![128, 128]⟩ .f32) :
    FVec Ideal ⟨2, ![50000, 128]⟩ .f32 :=
  fun i => deg (ix2 (i 0) 0) * ((∑ l : Fin 128, x (ix2 (i 0) l) * w2a (ix2 l (i 1))) + b2 (ix2 0 (i 1)))
    + ∑ l : Fin 128, s (ix2 (i 0) l) * w2b (ix2 l (i 1))

/-- Half the message plus half the residual. -/
def mix (xv x0 : FVec Ideal ⟨2, ![50000, 128]⟩ .f32) : FVec Ideal ⟨2, ![50000, 128]⟩ .f32 :=
  fun i => half * xv i + half * x0 i

/-- The fused last stage: the mix of message and residual through one more dense layer. -/
def fused (x : FVec Ideal ⟨2, ![50000, 128]⟩ .f32) (w2a : FVec Ideal ⟨2, ![128, 128]⟩ .f32)
    (b2 : FVec Ideal ⟨2, ![1, 128]⟩ .f32) (deg : FVec Ideal ⟨2, ![50000, 1]⟩ .f32)
    (s : FVec Ideal ⟨2, ![50000, 128]⟩ .f32) (w2b : FVec Ideal ⟨2, ![128, 128]⟩ .f32)
    (x0 : FVec Ideal ⟨2, ![50000, 128]⟩ .f32) (w3 : FVec Ideal ⟨2, ![128, 128]⟩ .f32)
    (b3 : FVec Ideal ⟨2, ![1, 128]⟩ .f32) : FVec Ideal ⟨2, ![50000, 128]⟩ .f32 :=
  dense (mix (message x w2a b2 deg s w2b) x0) w3 b3

end Cert.SetConv

end
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.DenseRegion.lean ====
/-
  The first region's result, as one array.

  The region walks the 50000 rows of its input in ten blocks of 5000 rows. At each block the body multiplies the block by
  the whole 128 x 128 weight matrix, adds the bias row to every row of the product, and stores the 5000 x 128 result as
  the matching block of the output. Row r of the output therefore depends only on row r of the input: it is
  x[r, :] . w + b, which is the dense layer of the specification at row r. The blocks tile the rows (row r lies in block
  r / 5000), so after the ten points the output array is the dense layer of the three arrays the region found on entry.
-/
import proofs.«164495_j4355096839068_2_alg».proof.Proof.Gen.KernelIdeal.Frame
import proofs.«164495_j4355096839068_2_alg».proof.Proof.Layers
import proofs.«164495_j4355096839068_2_alg».proof.Proof.LibPlainMatmul
import Idealize.ShloMosaic.Lib.Pipeline.Value
import Idealize.ShloMosaic.Lib.ValueLayout
import Idealize.ShloMosaic.Lib.ValueIdx

set_option maxRecDepth 16384

noncomputable section

namespace Cert.KernelIdeal.RegionValue

open Cert.KernelIdeal Cert.KernelIdeal.Gen Idealize.ShloMosaic Idealize.ShloMosaic.ValueIdx Idealize.ShloMosaic.TcCoe
open Idealize.ShloMosaic.Pipeline (Dat)

/-! ## The block product at an index -/

/-- Where the product's dimension numbers send an output index and a contraction index: the left operand is read at the
    output's row … -/
theorem dense_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted column, … -/
theorem dense_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … the right operand at the contracted row … -/
theorem dense_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
theorem dense_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 x 128 block times the 128 x 128 weights, accumulated into zero, at (p, j): the row-by-column sum. -/
theorem dense_product_at (lhs : FVec Ideal S5000x128 .f32) (rhs : FVec Ideal S128x128 .f32) (p : Fin 5000) (j : Fin 128) :
    matmul (F := Ideal) dot_S5000x128_S128x128_S5000x128_1_0_0_1_n_n none lhs rhs (constant (F := Ideal) S5000x128 .f32 0x00000000#32) (ix2 p j)
      = ∑ k : Fin 128, lhs (ix2 p k) * rhs (ix2 k j) :=
  Cert.LibPlainMatmul.matmul_zero_at (M := 5000) (K := 128) (N := 128) dot_S5000x128_S128x128_S5000x128_1_0_0_1_n_n none rfl rfl
    dense_lhs_row dense_lhs_col dense_rhs_row dense_rhs_col lhs rhs p j

/-! ## What the body stores, at an index -/

/-- The stored value at row p, column j of the block: row p of the input block against column j of the weights, plus
    the bias at column j. -/
theorem dense_payload_at (x0 : Vec Ideal S5000x128 .f32) (x1 : Vec Ideal S128x128 .f32) (x3 : Vec Ideal S1x128 .f32)
    (p : Fin 5000) (j : Fin 128) :
    k0_pay1 (F := Ideal) x0 x1 x3 (ix2 p j) = (∑ k : Fin 128, x0 (ix2 p k) * x1 (ix2 k j)) + x3 (ix2 (0 : Fin 1) j) := by
  unfold k0_pay1
  refine (addf_apply _ _ _).trans ?_
  refine congrArg₂ (· + ·) (dense_product_at x0 x1 p j) ?_
  refine (broadcastTo_1b_ab_apply _ _ p j).trans ?_
  rw [shapeCast_self]

/-! ## One point's block is a block of the dense layer -/

/-- If the input block is rows q * 5000 … q * 5000 + 4999 of the array A, and the weight and bias blocks are the whole of
    W and B, then the stored block at y is the dense layer of A, W, B at the index y sits at in the output array. -/
theorem dense_block_at (A : FVec Ideal S50000x128 .f32) (W : FVec Ideal S128x128 .f32) (B : FVec Ideal S1x128 .f32)
    (x0 : Vec Ideal S5000x128 .f32) (x1 : Vec Ideal S128x128 .f32) (x2 : Vec Ideal S1x128 .f32) (q : ℕ)
    (h0 : ∀ (p : Fin 5000) (k : Fin 128) (r : Fin 50000), r.val = q * 5000 + p.val → x0 (ix2 p k) = A (ix2 r k))
    (h1 : x1 = W) (h2 : x2 = B)
    (y : S5000x128.Idx) (i : S50000x128.Idx)
    (hi0 : (i 0).val = q * 5000 + (y 0).val) (hi1 : (i 1).val = (y 1).val) :
    k0_pay1 (F := Ideal) x0 x1 x2 y = Cert.SetConv.dense A W B i := by
  obtain ⟨p, j, rfl⟩ : ∃ (p : Fin 5000) (j : Fin 128), y = ix2 p j := ⟨y 0, y 1, eq_ix2 y⟩
  obtain ⟨r, j', rfl⟩ : ∃ (r : Fin 50000) (j' : Fin 128), i = ix2 r j' := ⟨i 0, i 1, eq_ix2 i⟩
  have hr : r.val = q * 5000 + p.val := hi0
  obtain rfl : j' = j := Fin.ext hi1
  subst h1 h2
  rw [dense_payload_at]
  show _ = (∑ k : Fin 128, A (ix2 r k) * x1 (ix2 k j')) + x2 (ix2 (0 : Fin 1) j')
  refine congrArg (· + x2 (ix2 (0 : Fin 1) j')) ?_
  exact Finset.sum_congr rfl fun k _ => by rw [h0 p k r hr]

/-! ## The index maps over the grid -/

theorem zero_offsets : (![0, 0] : Fin 2 → Nat) = fun _ => 0 := funext fun a => by fin_cases a <;> rfl

/-- The printed index maps, decided over the ten points: the input's row block moves with the output's, the weights and
    the bias stay at block (0, 0), and no window moves along the columns. -/
theorem dense_index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 :=
  (by decide +kernel : ∀ t : Fin grid0.N, _)

/-- Every one of the ten row blocks is some point's. -/
theorem dense_index_onto : ∀ q0 : Fin 10, ∃ t : Fin cfg0.N, win0_3.index t = ![q0.val, 0] :=
  (by decide +kernel : ∀ q0 : Fin 10, ∃ t : Fin grid0.N, win0_3.index t = ![q0.val, 0])

/-! ## The region's array -/

section Region

variable (V : (c : Dev nD) → (b : Ref sig .tc) → Buf (Elt Ideal) ((c : Thread nD τ).loc b))

/-- What point t writes back is block t of the dense layer of the arrays the region found. -/
theorem dense_flushed (c : Dev nD) (t : Fin cfg0.N) :
    (dat0 (F := Ideal) V c).flushed 3 t
      = ((cfg0.win 3).blk t).view.read (Elt Ideal) (Cert.SetConv.dense (V c main_arg0) (V c main_arg4) (V c main_v0)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  obtain ⟨e0, e1, e2, e3, e4, e5, e6⟩ := dense_index_facts t
  funext y
  refine dense_block_at (V c main_arg0) (V c main_arg4) (V c main_v0) (iblk0 V c 0 t) (iblk0 V c 1 t) (iblk0 V c 2 t)
    (win0_3.index t (0 : Fin 2)) ?_ ?_ ?_ y (((cfg0.win 3).blk t).view.emb y) ?_ ?_
  · intro p k r hr
    show V c main_arg0 (((cfg0.win 0).blk t).view.emb (ix2 p k)) = V c main_arg0 (ix2 r k)
    refine congrArg (V c main_arg0) ?_
    funext a; apply Fin.ext
    match a with
    | ⟨0, _⟩ => show win0_0.index t (0 : Fin 2) * 5000 + 1 * p.val = r.val; omega
    | ⟨1, _⟩ => show win0_0.index t (1 : Fin 2) * 128 + 1 * k.val = k.val; omega
  · funext z
    show V c main_arg4 (((cfg0.win 1).blk t).view.emb z) = V c main_arg4 z
    refine congrArg (V c main_arg4) ?_
    funext a; apply Fin.ext
    match a with
    | ⟨0, _⟩ => show win0_1.index t (0 : Fin 2) * 128 + 1 * (z 0).val = (z 0).val; omega
    | ⟨1, _⟩ => show win0_1.index t (1 : Fin 2) * 128 + 1 * (z 1).val = (z 1).val; omega
  · funext z
    show V c main_v0 (((cfg0.win 2).blk t).view.emb z) = V c main_v0 z
    refine congrArg (V c main_v0) ?_
    funext a; apply Fin.ext
    match a with
    | ⟨0, _⟩ => show win0_2.index t (0 : Fin 2) * 1 + 1 * (z 0).val = (z 0).val; omega
    | ⟨1, _⟩ => show win0_2.index t (1 : Fin 2) * 128 + 1 * (z 1).val = (z 1).val; omega
  · show win0_3.index t (0 : Fin 2) * 5000 + 1 * (y 0).val = win0_3.index t (0 : Fin 2) * 5000 + (y 0).val; omega
  · show win0_3.index t (1 : Fin 2) * 128 + 1 * (y 1).val = (y 1).val; omega

/-- An index of the output array is in point t's block iff each coordinate is in the block's range on its axis. -/
theorem dense_mem_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Row r of the output lies in block r / 5000: the ten blocks cover the array. -/
theorem dense_cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := dense_index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [dense_mem_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the region's ten points its output array is the dense layer of the arrays it found on entry. -/
theorem dense_arr (c : Dev nD) :
    (dat0 (F := Ideal) V c).arrAt 3 cfg0.N = Cert.SetConv.dense (V c main_arg0) (V c main_arg4) (V c main_v0) :=
  (dat0 (F := Ideal) V c).arrAt_eq_of_cover 3 (Cert.SetConv.dense (V c main_arg0) (V c main_arg4) (V c main_v0))
    (fun t _ => dense_flushed V c t) dense_cover

end Region

end Cert.KernelIdeal.RegionValue

end
-- ==== Proof.KernelOperands.lean ====
/-
  What the fused region is entered with.

  Between the two regions @main's host operations build the fused region's operands from the dense layer's output
  `y` and the arguments: the hyperedge rows gathered back to the incidence entries (`edgeRows`: gather `y` at the
  entries' vertices, scatter-add to the entries' hyperedges, gather at the entries' hyperedges), their scatter-add
  to the vertices (`gatheredSum`), the vertex degrees as a column (`degreeCol`: ones scatter-added to the
  vertices), the two halves of the 256-row weight matrix and the two biases as rows. Each of them is read here off the
  fold of the host operations, down to the launch memory.
-/
import proofs.«164495_j4355096839068_2_alg».proof.Proof.Gen.KernelIdeal.Frame
import proofs.«164495_j4355096839068_2_alg».proof.Proof.DenseRegion
import proofs.«164495_j4355096839068_2_alg».proof.Proof.Layers

set_option maxRecDepth 16384

noncomputable section

namespace Cert.KernelIdeal.Operands

open Cert.KernelIdeal Cert.KernelIdeal.Gen
open Idealize.ShloMosaic Idealize.ShloMosaic.TcCoe Idealize.ShloMosaic.Tactic Idealize.ShloMosaic.StableHlo
open Idealize.SL.Sem

/-! ## The operands as terms -/

section Terms
variable {F : FTy → Type} [FloatOps F]

/-- A bias vector as a `[1, 128]` row. -/
def biasRow (b : FVec F S128 .f32) : FVec F S1x128 .f32 := shapeCast S1x128 b shapeCasts_S128_S1x128

/-- An index vector as an `[800000, 1]` column, as the scatter-adds take it. -/
def idxCol (x : IVec S800000 32) : IVec S800000x1 32 := broadcastInDim S800000x1 ![0] bcast_S800000_S800000x1_0 x

/-- An index vector with negative entries wrapped around by `n`, as a column: what the gathers take. -/
def wrappedCol (n : BitVec 32) (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 n))) x)

/-- The hyperedge rows gathered back to the incidence entries. -/
def edgeRows (y : FVec F S50000x128 .f32) (x1 x2 : IVec S800000 32) : FVec F S800000x128 .f32 :=
  Host.gather gather_S25000x128_S800000x1_S800000x128_1_0_n_n_0_1_1128
    (Host.scatterAdd scatter_S25000x128_S800000x1_S800000x128_1_0_0_1
      (broadcastInDim S25000x128 ![] bcast_S_S25000x128 (constant S_ .f32 0x00000000#32))
      (idxCol x2)
      (Host.gather gather_S50000x128_S800000x1_S800000x128_1_0_n_n_0_1_1128 y (wrappedCol 50000#32 x1)))
    (wrappedCol 25000#32 x2)

/-- The gathered hyperedge rows scatter-added to the entries' vertices. -/
def gatheredSum (y : FVec F S50000x128 .f32) (x1 x2 : IVec S800000 32) : FVec F S50000x128 .f32 :=
  Host.scatterAdd scatter_S50000x128_S800000x1_S800000x128_1_0_0_1
    (broadcastInDim S50000x128 ![] bcast_S_S50000x128 (constant S_ .f32 0x00000000#32))
    (idxCol x1) (edgeRows y x1 x2)

/-- The vertex degrees: ones scatter-added to the entries' vertices. -/
def degree (x1 : IVec S800000 32) : FVec F S50000 .f32 :=
  Host.scatterAdd scatter_S50000_S800000x1_S800000_n_0_0_1
    (broadcastInDim S50000 ![] bcast_S_S50000 (constant S_ .f32 0x00000000#32))
    (idxCol x1)
    (broadcastInDim S800000 ![] bcast_S_S800000 (constant S_ .f32 0x3F800000#32))

/-- The degrees as a `[50000, 1]` column. -/
def degreeCol (x1 : IVec S800000 32) : FVec F S50000x1 .f32 :=
  shapeCast S50000x1 (degree (F := F) x1) shapeCasts_S50000_S50000x1

/-- The first 128 rows of the 256-row weight matrix. -/
def weightTop (x6 : FVec F S256x128 .f32) : FVec F S128x128 .f32 :=
  extractStridedSlice S128x128 ![0, 0] x6 slices_S256x128_S128x128_0_0

/-- The last 128 rows of the 256-row weight matrix. -/
def weightBottom (x6 : FVec F S256x128 .f32) : FVec F S128x128 .f32 :=
  extractStridedSlice S128x128 ![128, 0] x6 slices_S256x128_S128x128_128_0

end Terms

/-! ## The fold read at the operands -/

variable (m : (ℓ : Loc nD τ sig) → Buf (Elt Ideal) ℓ) (ρ : Dev nD → PrngReg)

local macro "unwritten0" b:term : tactic =>
  `(tactic| exact StableHlo.after_of_forall_not_mem (b := Proc.devRef .tc $b) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- The dense region is entered with the features, the first weight matrix and the first bias as a row. -/
theorem V1_arg0 (c : Dev nD) : V1 m ρ c main_arg0 = m ((c : Thread nD τ).loc main_arg0) := by
  show StableHlo.after hostOps0 (W0 m ρ c) (Proc.devRef .tc main_arg0) = _
  unwritten0 main_arg0
theorem V1_arg4 (c : Dev nD) : V1 m ρ c main_arg4 = m ((c : Thread nD τ).loc main_arg4) := by
  show StableHlo.after hostOps0 (W0 m ρ c) (Proc.devRef .tc main_arg4) = _
  unwritten0 main_arg4
theorem V1_v0 (c : Dev nD) : V1 m ρ c main_v0 = biasRow (F := Ideal) (m ((c : Thread nD τ).loc main_arg5)) := by
  show StableHlo.after hostOps0 (W0 m ρ c) (Proc.devRef .tc main_v0) = _
  after_results
  rfl

/-- After the dense region its output buffer holds the dense layer of the features. -/
theorem W2_v1 (c : Dev nD) : W2 m ρ c (Proc.devRef .tc main_v1)
    = Cert.SetConv.dense (m ((c : Thread nD τ).loc main_arg0)) (m ((c : Thread nD τ).loc main_arg4))
        (biasRow (F := Ideal) (m ((c : Thread nD τ).loc main_arg5))) := by
  rw [← V1_arg0 m ρ c, ← V1_arg4 m ρ c, ← V1_v0 m ρ c]
  exact (W2_arr m ρ c 3).trans (Cert.KernelIdeal.RegionValue.dense_arr (V1 m ρ) c)

/-- A buffer that is no array of the dense region and that the first host operations do not write is, after the
    dense region, as launched. -/
theorem W2_arg1 (c : Dev nD) : W2 m ρ c (Proc.devRef .tc main_arg1) = m ((c : Thread nD τ).loc main_arg1) :=
  (W2_of_ne m ρ c main_arg1 (by decide)).trans (by unwritten0 main_arg1)
theorem W2_arg2 (c : Dev nD) : W2 m ρ c (Proc.devRef .tc main_arg2) = m ((c : Thread nD τ).loc main_arg2) :=
  (W2_of_ne m ρ c main_arg2 (by decide)).trans (by unwritten0 main_arg2)
theorem W2_arg6 (c : Dev nD) : W2 m ρ c (Proc.devRef .tc main_arg6) = m ((c : Thread nD τ).loc main_arg6) :=
  (W2_of_ne m ρ c main_arg6 (by decide)).trans (by unwritten0 main_arg6)
theorem W2_arg7 (c : Dev nD) : W2 m ρ c (Proc.devRef .tc main_arg7) = m ((c : Thread nD τ).loc main_arg7) :=
  (W2_of_ne m ρ c main_arg7 (by decide)).trans (by unwritten0 main_arg7)
theorem W2_arg9 (c : Dev nD) : W2 m ρ c (Proc.devRef .tc main_arg9) = m ((c : Thread nD τ).loc main_arg9) :=
  (W2_of_ne m ρ c main_arg9 (by decide)).trans (by unwritten0 main_arg9)

/-- The fused region's three argument operands: an input window's array is unchanged by the region, and the run
    ends with the argument as launched. -/
theorem V3_arg0 (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)
theorem V3_arg3 (c : Dev nD) : V3 m ρ c main_arg3 = m ((c : Thread nD τ).loc main_arg3) :=
  ((W4_arr m ρ c 6).trans (((dat1 (V3 m ρ) c).arrAt_in 6 rfl _).trans (A_eq1 (V3 m ρ) c 6))).symm.trans (W4_main_arg3 m ρ c)
theorem V3_arg8 (c : Dev nD) : V3 m ρ c main_arg8 = m ((c : Thread nD τ).loc main_arg8) :=
  ((W4_arr m ρ c 7).trans (((dat1 (V3 m ρ) c).arrAt_in 7 rfl _).trans (A_eq1 (V3 m ρ) c 7))).symm.trans (W4_main_arg8 m ρ c)

/-- The fused region's six host-computed operands. -/
theorem V3_v26 (c : Dev nD) : V3 m ρ c main_v26 = weightTop (F := Ideal) (m ((c : Thread nD τ).loc main_arg6)) := by
  rw [← W2_arg6 m ρ c]
  show StableHlo.after hostOps1 (W2 m ρ c) (Proc.devRef .tc main_v26) = _
  after_results_simp
  rfl
theorem V3_v27 (c : Dev nD) : V3 m ρ c main_v27 = weightBottom (F := Ideal) (m ((c : Thread nD τ).loc main_arg6)) := by
  rw [← W2_arg6 m ρ c]
  show StableHlo.after hostOps1 (W2 m ρ c) (Proc.devRef .tc main_v27) = _
  after_results_simp
  rfl
theorem V3_v28 (c : Dev nD) : V3 m ρ c main_v28 = biasRow (F := Ideal) (m ((c : Thread nD τ).loc main_arg7)) := by
  rw [← W2_arg7 m ρ c]
  show StableHlo.after hostOps1 (W2 m ρ c) (Proc.devRef .tc main_v28) = _
  after_results_simp
  rfl
theorem V3_v29 (c : Dev nD) : V3 m ρ c main_v29 = biasRow (F := Ideal) (m ((c : Thread nD τ).loc main_arg9)) := by
  rw [← W2_arg9 m ρ c]
  show StableHlo.after hostOps1 (W2 m ρ c) (Proc.devRef .tc main_v29) = _
  after_results_simp
  rfl
theorem V3_v30 (c : Dev nD) : V3 m ρ c main_v30 = degreeCol (F := Ideal) (m ((c : Thread nD τ).loc main_arg1)) := by
  rw [← W2_arg1 m ρ c]
  show StableHlo.after hostOps1 (W2 m ρ c) (Proc.devRef .tc main_v30) = _
  after_results_simp
  rfl
set_option maxHeartbeats 1000000 in
theorem V3_v25 (c : Dev nD) : V3 m ρ c main_v25
    = gatheredSum (F := Ideal) (Cert.SetConv.dense (m ((c : Thread nD τ).loc main_arg0)) (m ((c : Thread nD τ).loc main_arg4))
        (biasRow (F := Ideal) (m ((c : Thread nD τ).loc main_arg5))))
        (m ((c : Thread nD τ).loc main_arg1)) (m ((c : Thread nD τ).loc main_arg2)) := by
  rw [← W2_v1 m ρ c, ← W2_arg1 m ρ c, ← W2_arg2 m ρ c]
  show StableHlo.after hostOps1 (W2 m ρ c) (Proc.devRef .tc main_v25) = _
  after_results_simp
  rfl

end Cert.KernelIdeal.Operands

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.FusedRegion.lean ====
/-
  The second region's result, as one array.

  The region walks the 50000 vertices in ten blocks of 5000 rows. At a block the body forms, row by row, the aggregated
  message deg * (x . w2a + b2) + s . w2b (the degree a one-column block, broadcast along the row), mixes it with the
  residual x0 with weight one half each, sends the mixed row through one more weight matrix and adds the last bias row.
  Every row of the stored block depends only on the same row of the four row-blocked inputs (x, deg, s, x0) and on the
  whole of the three weight matrices and two bias rows, so the stored block is a block of the fused stage of the
  specification, and the ten blocks tile the rows: after the ten points the output array is the fused stage of the nine
  arrays the region found on entry.
-/
import proofs.«164495_j4355096839068_2_alg».proof.Proof.Gen.KernelIdeal.Frame
import proofs.«164495_j4355096839068_2_alg».proof.Proof.Layers
import proofs.«164495_j4355096839068_2_alg».proof.Proof.LibPlainMatmul
import proofs.«164495_j4355096839068_2_alg».proof.Proof.LibKeepdims
import Idealize.ShloMosaic.Lib.Pipeline.Value
import Idealize.ShloMosaic.Lib.ValueLayout
import Idealize.ShloMosaic.Lib.ValueIdx

set_option maxRecDepth 16384

noncomputable section

namespace Cert.KernelIdeal.RegionValue

open Cert.KernelIdeal Cert.KernelIdeal.Gen Idealize.ShloMosaic Idealize.ShloMosaic.ValueIdx Idealize.ShloMosaic.TcCoe
open Idealize.ShloMosaic.Pipeline (Dat)

/-! ## A block product at an index -/

/-- Where the product's dimension numbers send an output index and a contraction index: the left operand is read at the
    output's row … -/
theorem fused_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted column, … -/
theorem fused_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- … the right operand at the contracted row … -/
theorem fused_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
theorem fused_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 x 128 block times a 128 x 128 matrix, accumulated into zero, at (p, j): the row-by-column sum. -/
theorem fused_product_at (lhs : FVec Ideal S5000x128 .f32) (rhs : FVec Ideal S128x128 .f32) (p : Fin 5000) (j : Fin 128) :
    matmul (F := Ideal) dot_S5000x128_S128x128_S5000x128_1_0_0_1_n_n none lhs rhs (constant (F := Ideal) S5000x128 .f32 0x00000000#32) (ix2 p j)
      = ∑ k : Fin 128, lhs (ix2 p k) * rhs (ix2 k j) :=
  Cert.LibPlainMatmul.matmul_zero_at (M := 5000) (K := 128) (N := 128) dot_S5000x128_S128x128_S5000x128_1_0_0_1_n_n none rfl rfl
    fused_lhs_row fused_lhs_col fused_rhs_row fused_rhs_col lhs rhs p j

/-! ## What the body stores, at an index -/

/-- The mixed row the last product reads, at row p, column l of the block: half the aggregated message plus half the
    residual. -/
abbrev mixedAt (x : Vec Ideal S5000x128 .f32) (w2a : Vec Ideal S128x128 .f32) (b2 : Vec Ideal S1x128 .f32)
    (deg : Vec Ideal S5000x1 .f32) (s : Vec Ideal S5000x128 .f32) (w2b : Vec Ideal S128x128 .f32)
    (x0 : Vec Ideal S5000x128 .f32) (p : Fin 5000) (l : Fin 128) : EReal :=
  Cert.SetConv.half * (deg (ix2 p (0 : Fin 1)) * ((∑ k : Fin 128, x (ix2 p k) * w2a (ix2 k l)) + b2 (ix2 (0 : Fin 1) l))
      + ∑ k : Fin 128, s (ix2 p k) * w2b (ix2 k l))
    + Cert.SetConv.half * x0 (ix2 p l)

/-- The stored value at row p, column j of the block: the mixed row p against column j of the last weights, plus the last
    bias at column j. -/
theorem fused_payload_at (x : Vec Ideal S5000x128 .f32) (w2a : Vec Ideal S128x128 .f32) (b2 : Vec Ideal S1x128 .f32)
    (deg : Vec Ideal S5000x1 .f32) (s : Vec Ideal S5000x128 .f32) (w2b : Vec Ideal S128x128 .f32)
    (x0 : Vec Ideal S5000x128 .f32) (w3 : Vec Ideal S128x128 .f32) (b3 : Vec Ideal S1x128 .f32)
    (p : Fin 5000) (j : Fin 128) :
    k1_pay1 (F := Ideal) x w2a b2 deg s w2b x0 w3 b3 (ix2 p j)
      = (∑ l : Fin 128, mixedAt x w2a b2 deg s w2b x0 p l * w3 (ix2 l j)) + b3 (ix2 (0 : Fin 1) j) := by
  unfold k1_pay1
  simp only [shapeCast_self]
  refine (addf_apply _ _ _).trans ?_
  refine congrArg₂ (· + ·) ?_ (broadcastTo_1b_ab_apply _ _ p j)
  refine (fused_product_at _ w3 p j).trans ?_
  refine Finset.sum_congr rfl fun l _ => ?_
  refine congrArg (· * w3 (ix2 l j)) ?_
  refine (addf_apply _ _ _).trans ?_
  refine congrArg₂ (· + ·) ?_ rfl
  refine (mulf_apply _ _ _).trans ?_
  refine congrArg (Cert.SetConv.half * ·) ?_
  refine (addf_apply _ _ _).trans ?_
  refine congrArg₂ (· + ·) ?_ (fused_product_at s w2b p l)
  refine (mulf_apply _ _ _).trans ?_
  refine congrArg₂ (· * ·) (Cert.Keepdims.broadcastTo_a1_ab_apply _ _ p l) ?_
  refine (addf_apply _ _ _).trans ?_
  exact congrArg₂ (· + ·) (fused_product_at x w2a p l) (broadcastTo_1b_ab_apply _ _ p l)

/-! ## One point's block is a block of the fused stage -/

/-- If the four row-blocked inputs are rows q * 5000 … q * 5000 + 4999 of their arrays and the weight and bias blocks are
    the whole of theirs, then the stored block at y is the fused stage of the nine arrays at the index y sits at in the
    output array. -/
theorem fused_block_at (X : FVec Ideal S50000x128 .f32) (W2a : FVec Ideal S128x128 .f32) (B2 : FVec Ideal S1x128 .f32)
    (Deg : FVec Ideal S50000x1 .f32) (Sv : FVec Ideal S50000x128 .f32) (W2b : FVec Ideal S128x128 .f32)
    (X0 : FVec Ideal S50000x128 .f32) (W3 : FVec Ideal S128x128 .f32) (B3 : FVec Ideal S1x128 .f32)
    (x : Vec Ideal S5000x128 .f32) (w2a : Vec Ideal S128x128 .f32) (b2 : Vec Ideal S1x128 .f32)
    (deg : Vec Ideal S5000x1 .f32) (s : Vec Ideal S5000x128 .f32) (w2b : Vec Ideal S128x128 .f32)
    (x0 : Vec Ideal S5000x128 .f32) (w3 : Vec Ideal S128x128 .f32) (b3 : Vec Ideal S1x128 .f32) (q : ℕ)
    (hx : ∀ (p : Fin 5000) (k : Fin 128) (r : Fin 50000), r.val = q * 5000 + p.val → x (ix2 p k) = X (ix2 r k))
    (hw2a : w2a = W2a) (hb2 : b2 = B2)
    (hdeg : ∀ (p : Fin 5000) (u : Fin 1) (r : Fin 50000), r.val = q * 5000 + p.val → deg (ix2 p u) = Deg (ix2 r u))
    (hs : ∀ (p : Fin 5000) (k : Fin 128) (r : Fin 50000), r.val = q * 5000 + p.val → s (ix2 p k) = Sv (ix2 r k))
    (hw2b : w2b = W2b)
    (hx0 : ∀ (p : Fin 5000) (k : Fin 128) (r : Fin 50000), r.val = q * 5000 + p.val → x0 (ix2 p k) = X0 (ix2 r k))
    (hw3 : w3 = W3) (hb3 : b3 = B3)
    (y : S5000x128.Idx) (i : S50000x128.Idx)
    (hi0 : (i 0).val = q * 5000 + (y 0).val) (hi1 : (i 1).val = (y 1).val) :
    k1_pay1 (F := Ideal) x w2a b2 deg s w2b x0 w3 b3 y = Cert.SetConv.fused X W2a B2 Deg Sv W2b X0 W3 B3 i := by
  obtain ⟨p, j, rfl⟩ : ∃ (p : Fin 5000) (j : Fin 128), y = ix2 p j := ⟨y 0, y 1, eq_ix2 y⟩
  obtain ⟨r, j', rfl⟩ : ∃ (r : Fin 50000) (j' : Fin 128), i = ix2 r j' := ⟨i 0, i 1, eq_ix2 i⟩
  have hr : r.val = q * 5000 + p.val := hi0
  obtain rfl : j' = j := Fin.ext hi1
  subst hw2a hb2 hw2b hw3 hb3
  rw [fused_payload_at]
  show _ = (∑ l : Fin 128, (Cert.SetConv.half * (Deg (ix2 r (0 : Fin 1)) * ((∑ k : Fin 128, X (ix2 r k) * w2a (ix2 k l)) + b2 (ix2 (0 : Fin 1) l))
      + ∑ k : Fin 128, Sv (ix2 r k) * w2b (ix2 k l)) + Cert.SetConv.half * X0 (ix2 r l)) * w3 (ix2 l j')) + b3 (ix2 (0 : Fin 1) j')
  have ex : ∀ l : Fin 128, (∑ k : Fin 128, x (ix2 p k) * w2a (ix2 k l)) = ∑ k : Fin 128, X (ix2 r k) * w2a (ix2 k l) :=
    fun l => Finset.sum_congr rfl fun k _ => by rw [hx p k r hr]
  have es : ∀ l : Fin 128, (∑ k : Fin 128, s (ix2 p k) * w2b (ix2 k l)) = ∑ k : Fin 128, Sv (ix2 r k) * w2b (ix2 k l) :=
    fun l => Finset.sum_congr rfl fun k _ => by rw [hs p k r hr]
  refine congrArg (· + b3 (ix2 (0 : Fin 1) j')) ?_
  refine Finset.sum_congr rfl fun l _ => ?_
  show mixedAt x w2a b2 deg s w2b x0 p l * w3 (ix2 l j') = _
  unfold mixedAt
  rw [ex l, es l, hdeg p 0 r hr, hx0 p l r hr]

/-! ## The index maps over the grid -/

theorem fused_zero_offsets : (![0, 0] : Fin 2 → Nat) = fun _ => 0 := funext fun a => by fin_cases a <;> rfl

/-- The printed index maps, decided over the ten points: the four row-blocked inputs move with the output's row block, the
    weights and the bias rows stay at block (0, 0), and no window moves along the columns. -/
theorem fused_index_facts : ∀ t : Fin cfg1.N, win1_0.index t (0 : Fin 2) = win1_9.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = win1_9.index t (0 : Fin 2)
    ∧ win1_3.index t (1 : Fin 2) = 0
    ∧ win1_4.index t (0 : Fin 2) = win1_9.index t (0 : Fin 2)
    ∧ win1_4.index t (1 : Fin 2) = 0
    ∧ win1_5.index t (0 : Fin 2) = 0
    ∧ win1_5.index t (1 : Fin 2) = 0
    ∧ win1_6.index t (0 : Fin 2) = win1_9.index t (0 : Fin 2)
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (1 : Fin 2) = 0 :=
  (by decide +kernel : ∀ t : Fin grid1.N, _)

/-- Every one of the ten row blocks is some point's. -/
theorem fused_index_onto : ∀ q0 : Fin 10, ∃ t : Fin cfg1.N, win1_9.index t = ![q0.val, 0] :=
  (by decide +kernel : ∀ q0 : Fin 10, ∃ t : Fin grid1.N, win1_9.index t = ![q0.val, 0])

/-! ## The region's array -/

section Region

variable (V : (c : Dev nD) → (b : Ref sig .tc) → Buf (Elt Ideal) ((c : Thread nD τ).loc b))

/-- What point t writes back is block t of the fused stage of the arrays the region found. -/
theorem fused_flushed (c : Dev nD) (t : Fin cfg1.N) :
    (dat1 (F := Ideal) V c).flushed 9 t
      = ((cfg1.win 9).blk t).view.read (Elt Ideal) (Cert.SetConv.fused (V c main_arg0) (V c main_v26) (V c main_v28) (V c main_v30) (V c main_v25) (V c main_v27) (V c main_arg3) (V c main_arg8) (V c main_v29)) := by
  show (cfg1.win 9).cut (grid1.coords t) ((dat1 (F := Ideal) V c).after 9 t) = _
  rw [after1_9]
  unfold out1_9
  rw [View.canon_unit_zero fused_zero_offsets]
  simp only [View.ld_unit_zero (S := S5000x128) fused_zero_offsets, View.ld_unit_zero (S := S128x128) fused_zero_offsets,
    View.ld_unit_zero (S := S1x128) fused_zero_offsets, View.ld_unit_zero (S := S5000x1) fused_zero_offsets]
  obtain ⟨e0, e1, e2, e3, e4, e5, e6, e7, e8, e9, e10, e11, e12, e13, e14, e15, e16, e17, e18⟩ := fused_index_facts t
  funext y
  refine fused_block_at (V c main_arg0) (V c main_v26) (V c main_v28) (V c main_v30) (V c main_v25) (V c main_v27) (V c main_arg3) (V c main_arg8) (V c main_v29)
    (iblk1 V c 0 t) (iblk1 V c 1 t) (iblk1 V c 2 t) (iblk1 V c 3 t) (iblk1 V c 4 t) (iblk1 V c 5 t) (iblk1 V c 6 t) (iblk1 V c 7 t) (iblk1 V c 8 t)
    (win1_9.index t (0 : Fin 2)) ?_ ?_ ?_ ?_ ?_ ?_ ?_ ?_ ?_ y (((cfg1.win 9).blk t).view.emb y) ?_ ?_
  · intro p k r hr
    show V c main_arg0 (((cfg1.win 0).blk t).view.emb (ix2 p k)) = V c main_arg0 (ix2 r k)
    refine congrArg (V c main_arg0) ?_
    funext a; apply Fin.ext
    match a with
    | ⟨0, _⟩ => show win1_0.index t (0 : Fin 2) * 5000 + 1 * p.val = r.val; omega
    | ⟨1, _⟩ => show win1_0.index t (1 : Fin 2) * 128 + 1 * k.val = k.val; omega
  · funext z
    show V c main_v26 (((cfg1.win 1).blk t).view.emb z) = V c main_v26 z
    refine congrArg (V c main_v26) ?_
    funext a; apply Fin.ext
    match a with
    | ⟨0, _⟩ => show win1_1.index t (0 : Fin 2) * 128 + 1 * (z 0).val = (z 0).val; omega
    | ⟨1, _⟩ => show win1_1.index t (1 : Fin 2) * 128 + 1 * (z 1).val = (z 1).val; omega
  · funext z
    show V c main_v28 (((cfg1.win 2).blk t).view.emb z) = V c main_v28 z
    refine congrArg (V c main_v28) ?_
    funext a; apply Fin.ext
    match a with
    | ⟨0, _⟩ => show win1_2.index t (0 : Fin 2) * 1 + 1 * (z 0).val = (z 0).val; omega
    | ⟨1, _⟩ => show win1_2.index t (1 : Fin 2) * 128 + 1 * (z 1).val = (z 1).val; omega
  · intro p u r hr
    show V c main_v30 (((cfg1.win 3).blk t).view.emb (ix2 p u)) = V c main_v30 (ix2 r u)
    refine congrArg (V c main_v30) ?_
    funext a; apply Fin.ext
    match a with
    | ⟨0, _⟩ => show win1_3.index t (0 : Fin 2) * 5000 + 1 * p.val = r.val; omega
    | ⟨1, _⟩ => show win1_3.index t (1 : Fin 2) * 1 + 1 * u.val = u.val; omega
  · intro p k r hr
    show V c main_v25 (((cfg1.win 4).blk t).view.emb (ix2 p k)) = V c main_v25 (ix2 r k)
    refine congrArg (V c main_v25) ?_
    funext a; apply Fin.ext
    match a with
    | ⟨0, _⟩ => show win1_4.index t (0 : Fin 2) * 5000 + 1 * p.val = r.val; omega
    | ⟨1, _⟩ => show win1_4.index t (1 : Fin 2) * 128 + 1 * k.val = k.val; omega
  · funext z
    show V c main_v27 (((cfg1.win 5).blk t).view.emb z) = V c main_v27 z
    refine congrArg (V c main_v27) ?_
    funext a; apply Fin.ext
    match a with
    | ⟨0, _⟩ => show win1_5.index t (0 : Fin 2) * 128 + 1 * (z 0).val = (z 0).val; omega
    | ⟨1, _⟩ => show win1_5.index t (1 : Fin 2) * 128 + 1 * (z 1).val = (z 1).val; omega
  · intro p k r hr
    show V c main_arg3 (((cfg1.win 6).blk t).view.emb (ix2 p k)) = V c main_arg3 (ix2 r k)
    refine congrArg (V c main_arg3) ?_
    funext a; apply Fin.ext
    match a with
    | ⟨0, _⟩ => show win1_6.index t (0 : Fin 2) * 5000 + 1 * p.val = r.val; omega
    | ⟨1, _⟩ => show win1_6.index t (1 : Fin 2) * 128 + 1 * k.val = k.val; omega
  · funext z
    show V c main_arg8 (((cfg1.win 7).blk t).view.emb z) = V c main_arg8 z
    refine congrArg (V c main_arg8) ?_
    funext a; apply Fin.ext
    match a with
    | ⟨0, _⟩ => show win1_7.index t (0 : Fin 2) * 128 + 1 * (z 0).val = (z 0).val; omega
    | ⟨1, _⟩ => show win1_7.index t (1 : Fin 2) * 128 + 1 * (z 1).val = (z 1).val; omega
  · funext z
    show V c main_v29 (((cfg1.win 8).blk t).view.emb z) = V c main_v29 z
    refine congrArg (V c main_v29) ?_
    funext a; apply Fin.ext
    match a with
    | ⟨0, _⟩ => show win1_8.index t (0 : Fin 2) * 1 + 1 * (z 0).val = (z 0).val; omega
    | ⟨1, _⟩ => show win1_8.index t (1 : Fin 2) * 128 + 1 * (z 1).val = (z 1).val; omega
  · show win1_9.index t (0 : Fin 2) * 5000 + 1 * (y 0).val = win1_9.index t (0 : Fin 2) * 5000 + (y 0).val; omega
  · show win1_9.index t (1 : Fin 2) * 128 + 1 * (y 1).val = (y 1).val; omega

/-- An index of the output array is in point t's block iff each coordinate is in the block's range on its axis. -/
theorem fused_mem_block (t : Fin cfg1.N) (i : S50000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v31).slice (win1_9.rect t)).set ↔ _
  rw [View.set_slice_whole, Rect.mem_set_unit]
  exact Iff.rfl

/-- Row r of the output lies in block r / 5000: the ten blocks cover the array. -/
theorem fused_cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  obtain ⟨t, ht⟩ := fused_index_onto ⟨(i 0).val / 5000, by omega⟩
  have q0 : win1_9.index t (0 : Fin 2) = (i 0).val / 5000 := congrFun ht 0
  have q1 : win1_9.index t (1 : Fin 2) = 0 := congrFun ht 1
  refine ⟨t, flush1_9 t, ?_⟩
  rw [fused_mem_block]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 128 ≤ (i 1).val ∧ (i 1).val < win1_9.index t (1 : Fin 2) * 128 + 128; omega

/-- After the region's ten points its output array is the fused stage of the arrays it found on entry. -/
theorem fused_arr (c : Dev nD) :
    (dat1 (F := Ideal) V c).arrAt 9 cfg1.N = Cert.SetConv.fused (V c main_arg0) (V c main_v26) (V c main_v28) (V c main_v30) (V c main_v25) (V c main_v27) (V c main_arg3) (V c main_arg8) (V c main_v29) :=
  (dat1 (F := Ideal) V c).arrAt_eq_of_cover 9 (Cert.SetConv.fused (V c main_arg0) (V c main_v26) (V c main_v28) (V c main_v30) (V c main_v25) (V c main_v27) (V c main_arg3) (V c main_arg8) (V c main_v29))
    (fun t _ => fused_flushed V c t) fused_cover

end Region

end Cert.KernelIdeal.RegionValue

end
-- ==== Proof.KernelValue.lean ====
/-
  The kernel program's result as one function of its arguments.

  The fused region leaves in the result buffer the fused stage of its nine operands (the region's whole-array
  value), and the operands are the host operations' terms of the arguments and of the dense region's output, itself
  the dense layer of the features. Substituting gives the result as `result m c`, a term of the launch memory alone.
-/
import proofs.«164495_j4355096839068_2_alg».proof.Proof.KernelRun
import proofs.«164495_j4355096839068_2_alg».proof.Proof.KernelOperands
import proofs.«164495_j4355096839068_2_alg».proof.Proof.FusedRegion

set_option maxRecDepth 16384

noncomputable section

namespace Cert.KernelIdeal.KValue

open Cert.KernelIdeal Cert.KernelIdeal.Gen Cert.KernelIdeal.Operands
open Idealize.ShloMosaic Idealize.ShloMosaic.TcCoe Idealize.SL.Sem

variable (m : (ℓ : Loc nD τ sig) → Buf (Elt Ideal) ℓ) (ρ : Dev nD → PrngReg)

/-- The kernel program's result on core `c`, from the launch memory. -/
def result (c : Dev nD) : FVec Ideal S50000x128 .f32 :=
  Cert.SetConv.fused (m ((c : Thread nD τ).loc main_arg0))
    (weightTop (F := Ideal) (m ((c : Thread nD τ).loc main_arg6)))
    (biasRow (F := Ideal) (m ((c : Thread nD τ).loc main_arg7)))
    (degreeCol (F := Ideal) (m ((c : Thread nD τ).loc main_arg1)))
    (gatheredSum (F := Ideal)
      (Cert.SetConv.dense (m ((c : Thread nD τ).loc main_arg0)) (m ((c : Thread nD τ).loc main_arg4))
        (biasRow (F := Ideal) (m ((c : Thread nD τ).loc main_arg5))))
      (m ((c : Thread nD τ).loc main_arg1)) (m ((c : Thread nD τ).loc main_arg2)))
    (weightBottom (F := Ideal) (m ((c : Thread nD τ).loc main_arg6)))
    (m ((c : Thread nD τ).loc main_arg3)) (m ((c : Thread nD τ).loc main_arg8))
    (biasRow (F := Ideal) (m ((c : Thread nD τ).loc main_arg9)))

/-- The fold of @main's segments, read at the result buffer, is `result`. -/
theorem fold_result (c : Dev nD) : W4 m ρ c (Proc.devRef .tc main_v31) = result m c := by
  have h := (W4_arr m ρ c 9).trans (Cert.KernelIdeal.RegionValue.fused_arr (V3 m ρ) c)
  rw [V3_arg0 m ρ c, V3_v26 m ρ c, V3_v28 m ρ c, V3_v30 m ρ c, V3_v25 m ρ c, V3_v27 m ρ c, V3_arg3 m ρ c,
    V3_arg8 m ρ c, V3_v29 m ρ c] at h
  exact h

/-- Every weakly fair execution of the kernel program terminates without a fault, with `result` in the result buffer
    and the arguments unchanged. -/
theorem run : θ_run defs (onTc (τ := τ) (main (F := Ideal))) ⟨m, fun _ => 0, ρ⟩ (fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (fold_result m ρ c), (h c).2⟩) (Cert.KernelIdeal.Run.run_result m ρ)

end Cert.KernelIdeal.KValue

end
-- ==== Proof.RefTail.lean ====
/-
  The last stages of the reference, read at an index.

  After the scatter-add that forms the vertex message, the reference halves it, adds half the residual, multiplies
  by the last weight matrix and adds the last bias, broadcast from a `[1, 128]` row: index by index this is the dense
  layer of the mix of the message and the residual.
-/
import proofs.«164495_j4355096839068_2_alg».proof.Proof.Gen.ReferenceIdeal.Read
import proofs.«164495_j4355096839068_2_alg».proof.Proof.Layers

noncomputable section

namespace Cert.ReferenceIdeal.RefValue

open Cert.ReferenceIdeal Cert.ReferenceIdeal.Gen Cert.ReferenceIdeal.Read
open Idealize.ShloMosaic Idealize.ShloMosaic.ValueIdx

/-- The reference's result is the dense layer of the mix of its vertex message and the residual. -/
theorem result_is_dense_mix (x0 : FVec Ideal S50000x128 .f32) (x1 x2 : IVec S800000 32) (x3 : FVec Ideal S50000x128 .f32)
    (x4 : FVec Ideal S128x128 .f32) (x5 : FVec Ideal S128 .f32) (x6 : FVec Ideal S256x128 .f32) (x7 : FVec Ideal S128 .f32)
    (x8 : FVec Ideal S128x128 .f32) (x9 : FVec Ideal S128 .f32) :
    val_main_v44 (F := Ideal) x0 x1 x2 x3 x4 x5 x6 x7 x8 x9
      = Cert.SetConv.dense (Cert.SetConv.mix (val_main_v35 (F := Ideal) x0 x1 x2 x4 x5 x6 x7) x3) x8
          (val_main_v42 (F := Ideal) x9) := by
  funext i
  obtain ⟨p, j, rfl⟩ : ∃ (p : Fin 50000) (j : Fin 128), i = ix2 p j := ⟨i 0, i 1, eq_ix2 i⟩
  have e1 : ∀ k : Fin 128, lidx_main_v41 (ix2 p j) k = ix2 p k := fun k =>
    funext fun a => Fin.ext (by match a with | ⟨0, _⟩ => rfl | ⟨1, _⟩ => rfl)
  have e2 : ∀ k : Fin 128, ridx_main_v41 (ix2 p j) k = ix2 k j := fun k =>
    funext fun a => Fin.ext (by match a with | ⟨0, _⟩ => rfl | ⟨1, _⟩ => rfl)
  have e3 : idx_main_v43 (ix2 p j) = ix2 (0 : Fin 1) j :=
    funext fun a => Fin.ext (by match a with | ⟨0, _⟩ => rfl | ⟨1, _⟩ => rfl)
  generalize hv : val_main_v35 (F := Ideal) x0 x1 x2 x4 x5 x6 x7 = v35
  show _ = (∑ k : Fin 128, (Cert.SetConv.half * v35 (ix2 p k) + Cert.SetConv.half * x3 (ix2 p k)) * x8 (ix2 k j))
    + val_main_v42 (F := Ideal) x9 (ix2 (0 : Fin 1) j)
  rw [val_main_v44_apply, val_main_v41_apply, val_main_v43_apply, e3, Ideal.addf_def]
  refine congrArg (fun t => t + val_main_v42 (F := Ideal) x9 (ix2 (0 : Fin 1) j)) ?_
  refine Finset.sum_congr rfl fun k _ => ?_
  rw [e1, e2, val_main_v40_apply, val_main_v37_apply, val_main_v39_apply, val_main_v36_apply, val_main_v38_apply,
    val_main_cst_6_apply, val_main_cst_7_apply, hv]
  rfl

end Cert.ReferenceIdeal.RefValue

end
-- ==== Proof.LibEdgeScatterGather.lean ====
/-
  Gather and accumulating scatter over an edge list, read at an index.

  An array of node rows `x : [N, C]` (or a node vector `x : [N]`) and an integer column of edge endpoints `idx : [E, 1]`.
  The gather `x[idx]` reads, for edge `e`, the row of `x` at the endpoint `idx[e, 0]` read signed and clamped into
  `[0, N − 1]`. The accumulating scatter (a segment sum) adds to node `p` every edge row whose endpoint, read signed and
  not clamped, is exactly `p`; an edge whose endpoint is outside `[0, N)` contributes nothing.
-/
import Idealize.ShloMosaic.Lib.ValueIdx

noncomputable section

open scoped BigOperators

namespace Idealize.ShloMosaic.EdgeOps

open Idealize.ShloMosaic
open Idealize.ShloMosaic.ValueIdx

/-! ## The accumulating scatter of edge rows `[E, C]` into node rows `[N, C]` -/

/-- The dimension numbers of a row scatter: updates `[E, C]` whose axis 1 is the window axis, going to operand axis 1;
    operand axis 0 is the inserted one, addressed by the single component of the scatter index `idx[e, 0]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)

/-- On the node axis the window starts at the edge's endpoint `idx[e, 0]`, read signed. -/
theorem rowScatter_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the channel axis the window starts at `0`. -/
theorem rowScatter_start1 (idx : IVec ⟨2, ![E, 1]⟩ w) (j : (⟨2, ![E, C]⟩ : Shape).Idx) :
    (rowScatterDims N E C wf).start j idx 1 = 0 := by
  unfold ScatterDims.start
  rw [dif_neg (show (1 : Fin 2) ∉ [(0 : Fin 2)] by decide)]

/-- The node axis is inserted: no window coordinate there. -/
theorem rowScatter_window0 (j : (⟨2, ![E, C]⟩ : Shape).Idx) : (rowScatterDims N E C wf).window j 0 = 0 := by
  unfold ScatterDims.window
  have h : (0 : Fin 2) ∉ (rowScatterDims N E C wf).sKept :=
    show (0 : Fin 2) ∉ (List.finRange 2).filter (fun a => a ∉ [(0 : Fin 2)]) by decide
  rw [dif_neg h]

/-- On the channel axis the window coordinate is the update's channel. -/
theorem rowScatter_window1 (j : (⟨2, ![E, C]⟩ : Shape).Idx) : (rowScatterDims N E C wf).window j 1 = (j 1).val := by
  unfold ScatterDims.window
  have h : (1 : Fin 2) ∈ (rowScatterDims N E C wf).sKept :=
    show (1 : Fin 2) ∈ (List.finRange 2).filter (fun a => a ∉ [(0 : Fin 2)]) by decide
  rw [dif_pos h]
  rfl

/-- WHERE AN EDGE ROW LANDS: update element `(e, c')` lands on operand element `i` exactly when the endpoint `idx[e, 0]`,
    read signed, is `i`'s node and `c'` is `i`'s channel. -/
theorem rowScatter_resultIdx_iff (idx : IVec ⟨2, ![E, 1]⟩ w) (j : (⟨2, ![E, C]⟩ : Shape).Idx)
    (i : (⟨2, ![N, C]⟩ : Shape).Idx) :
    (rowScatterDims N E C wf).resultIdx? j idx = some i ↔
      (idx (ix2 (j 0) 0)).toInt = ((i 0).val : ℤ) ∧ (j 1).val = (i 1).val := by
  have hi0 : (i 0).val < N := idx2_lt0 i
  have hi1 : (i 1).val < C := idx2_lt1 i
  have hj1 : (j 1).val < C := idx2_lt1 j
  unfold ScatterDims.resultIdx?
  constructor
  · intro h
    split at h
    · rename_i hall
      have hf := Option.some.inj h
      have h0 := congrArg (fun f => (f 0).val) hf
      have h1 := congrArg (fun f => (f 1).val) hf
      simp only [rowScatter_start0, rowScatter_start1, rowScatter_window0, rowScatter_window1] at h0 h1
      have hall0 := (hall 0).1
      rw [rowScatter_start0, rowScatter_window0] at hall0
      constructor <;> omega
    · exact absurd h (by simp)
  · rintro ⟨h0, h1⟩
    have hall : ∀ a : Fin 2, 0 ≤ (rowScatterDims N E C wf).start j idx a + ((rowScatterDims N E C wf).window j a : ℤ) ∧
        (rowScatterDims N E C wf).start j idx a + ((rowScatterDims N E C wf).window j a : ℤ) <
          (((⟨2, ![N, C]⟩ : Shape).size a : ℕ) : ℤ) := by
      intro a
      match a with
      | ⟨0, _⟩ =>
        show 0 ≤ (rowScatterDims N E C wf).start j idx 0 + ((rowScatterDims N E C wf).window j 0 : ℤ) ∧
          (rowScatterDims N E C wf).start j idx 0 + ((rowScatterDims N E C wf).window j 0 : ℤ) < (N : ℤ)
        rw [rowScatter_start0, rowScatter_window0]; omega
      | ⟨1, _⟩ =>
        show 0 ≤ (rowScatterDims N E C wf).start j idx 1 + ((rowScatterDims N E C wf).window j 1 : ℤ) ∧
          (rowScatterDims N E C wf).start j idx 1 + ((rowScatterDims N E C wf).window j 1 : ℤ) < (C : ℤ)
        rw [rowScatter_start1, rowScatter_window1]; omega
    rw [dif_pos hall]
    congr 1
    funext a
    refine Fin.ext ?_
    match a with
    | ⟨0, _⟩ =>
      show ((rowScatterDims N E C wf).start j idx 0 + ((rowScatterDims N E C wf).window j 0 : ℤ)).toNat = (i 0).val
      rw [rowScatter_start0, rowScatter_window0]; omega
    | ⟨1, _⟩ =>
      show ((rowScatterDims N E C wf).start j idx 1 + ((rowScatterDims N E C wf).window j 1 : ℤ)).toNat = (i 1).val
      rw [rowScatter_start1, rowScatter_window1]; omega

/-- The same with both indices given by coordinates: edge `e`'s channel `b` lands on node `p`'s channel `c` exactly when the
    endpoint `idx[e, 0]`, read signed, is `p` and `b = c`. -/
theorem rowScatter_resultIdx_ix2_iff (idx : IVec ⟨2, ![E, 1]⟩ w) (e : Fin E) (b : Fin C) (p : Fin N) (c : Fin C) :
    (rowScatterDims N E C wf).resultIdx? (ix2 e b) idx = some (ix2 p c) ↔
      (idx (ix2 e 0)).toInt = (p.val : ℤ) ∧ b.val = c.val :=
  rowScatter_resultIdx_iff wf idx (ix2 e b) (ix2 p c)

end RowScatter

/-- THE ROW SCATTER READ AT `(p, c)`: node `p`'s channel `c` plus the sum, over the edges whose endpoint `idx[e, 0]` read
    signed is exactly `p`, of the edge rows' channel `c`. -/
theorem scatterAdd_rows_apply {N E C w : Nat} (φ : FTy)
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w)
    (upd : FVec Ideal ⟨2, ![E, C]⟩ φ) (p : Fin N) (c : Fin C) :
    Host.scatterAdd (F := Ideal) (rowScatterDims N E C wf) x idx upd (ix2 p c) =
      x (ix2 p c) + ∑ e ∈ Finset.univ.filter (fun e : Fin E => (idx (ix2 e 0)).toInt = (p.val : ℤ)), upd (ix2 e c) := by
  show Ideal.hostScatterAdd (rowScatterDims N E C wf) x idx upd (ix2 p c) = _
  unfold Ideal.hostScatterAdd
  congr 1
  rw [Finset.sum_filter, Finset.sum_filter, sum_idx2]
  refine Finset.sum_congr rfl fun e _ => ?_
  simp only [rowScatter_resultIdx_ix2_iff wf]
  by_cases hP : (idx (ix2 e 0)).toInt = (p.val : ℤ)
  · rw [if_pos hP]
    have : ∀ b : Fin C, ((idx (ix2 e 0)).toInt = (p.val : ℤ) ∧ b.val = c.val) ↔ c = b :=
      fun b => ⟨fun h => Fin.ext h.2.symm, fun h => ⟨hP, by rw [h]⟩⟩
    simp only [this]
    rw [Finset.sum_ite_eq]
    exact if_pos (Finset.mem_univ c)
  · rw [if_neg hP]
    refine Finset.sum_eq_zero fun b _ => ?_
    rw [if_neg (fun h => hP h.1)]

/-! ## The gather of node rows `[N, C]` at edge endpoints `[E, 1]` -/

/-- The dimension numbers of a row gather: result `[E, C]` whose axis 1 is the offset axis, reading operand axis 1 in
    full; operand axis 0 is collapsed (a slice of one row), started at the single component of the start index
    `idx[e, 0]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: channel `c` of the node row at the endpoint `idx[e, 0]`, read signed and clamped
    into `[0, N − 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) =
      x (ix2 ⟨min (idx (ix2 e 0)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0 +
      (rowGatherDims N E C wf).offCoord (ix2 e c) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1 +
      (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ [(0 : Fin 2)] by decide)]
    have ho : (rowGatherDims N E C wf).offCoord (ix2 e c) 1 = c.val := by
      unfold GatherDims.offCoord
      have h : (1 : Fin 2) ∈ (rowGatherDims N E C wf).sKept :=
        (GatherDims.mem_sKept _ _).mpr ⟨show (1 : Fin 2) ∉ [(0 : Fin 2)] by decide, List.not_mem_nil⟩
      rw [dif_pos h]
      rfl
    rw [hs, ho]
    omega

/-! ## Rank-1 indices: the index set is its one coordinate's range -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The accumulating scatter of an edge vector `[E]` into a node vector `[N]` -/

/-- The dimension numbers of a vector scatter: updates `[E]` with no window axis; the operand's one axis is the inserted
    one, addressed by the single component of the scatter index `idx[e, 0]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable {N E w : Nat} (wf : ScatterDims.WF ⟨1, ![N]⟩ ⟨2, ![E, 1]⟩ ⟨1, ![E]⟩ [] [0] [0] 1)

/-- On the node axis the window starts at the edge's endpoint `idx[e, 0]`, read signed. -/
theorem vecScatter_start0 (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The node axis is inserted: no window coordinate there. -/
theorem vecScatter_window0 (j : (⟨1, ![E]⟩ : Shape).Idx) : (vecScatterDims N E wf).window j 0 = 0 := by
  unfold ScatterDims.window
  have h : (0 : Fin 1) ∉ (vecScatterDims N E wf).sKept :=
    show (0 : Fin 1) ∉ (List.finRange 1).filter (fun a => a ∉ [(0 : Fin 1)]) by decide
  rw [dif_neg h]

/-- WHERE AN EDGE VALUE LANDS: update element `e` lands on operand element `i` exactly when the endpoint `idx[e, 0]`,
    read signed, is `i`'s node. -/
theorem vecScatter_resultIdx_iff (idx : IVec ⟨2, ![E, 1]⟩ w) (j : (⟨1, ![E]⟩ : Shape).Idx)
    (i : (⟨1, ![N]⟩ : Shape).Idx) :
    (vecScatterDims N E wf).resultIdx? j idx = some i ↔ (idx (ix2 (j 0) 0)).toInt = ((i 0).val : ℤ) := by
  have hi0 : (i 0).val < N := (i 0).isLt
  unfold ScatterDims.resultIdx?
  constructor
  · intro h
    split at h
    · rename_i hall
      have hf := Option.some.inj h
      have h0 := congrArg (fun f => (f 0).val) hf
      simp only [vecScatter_start0, vecScatter_window0] at h0
      have hall0 := (hall 0).1
      rw [vecScatter_start0, vecScatter_window0] at hall0
      omega
    · exact absurd h (by simp)
  · intro h0
    have hall : ∀ a : Fin 1, 0 ≤ (vecScatterDims N E wf).start j idx a + ((vecScatterDims N E wf).window j a : ℤ) ∧
        (vecScatterDims N E wf).start j idx a + ((vecScatterDims N E wf).window j a : ℤ) <
          (((⟨1, ![N]⟩ : Shape).size a : ℕ) : ℤ) := by
      intro a
      match a with
      | ⟨0, _⟩ =>
        show 0 ≤ (vecScatterDims N E wf).start j idx 0 + ((vecScatterDims N E wf).window j 0 : ℤ) ∧
          (vecScatterDims N E wf).start j idx 0 + ((vecScatterDims N E wf).window j 0 : ℤ) < (N : ℤ)
        rw [vecScatter_start0, vecScatter_window0]; omega
    rw [dif_pos hall]
    congr 1
    funext a
    refine Fin.ext ?_
    match a with
    | ⟨0, _⟩ =>
      show ((vecScatterDims N E wf).start j idx 0 + ((vecScatterDims N E wf).window j 0 : ℤ)).toNat = (i 0).val
      rw [vecScatter_start0, vecScatter_window0]; omega

/-- The same with both indices given by coordinates. -/
theorem vecScatter_resultIdx_ix1_iff (idx : IVec ⟨2, ![E, 1]⟩ w) (e : Fin E) (p : Fin N) :
    (vecScatterDims N E wf).resultIdx? (ix1 e) idx = some (ix1 p) ↔ (idx (ix2 e 0)).toInt = (p.val : ℤ) :=
  vecScatter_resultIdx_iff wf idx (ix1 e) (ix1 p)

end VecScatter

/-- THE VECTOR SCATTER READ AT `p`: node `p`'s value plus the sum, over the edges whose endpoint `idx[e, 0]` read signed
    is exactly `p`, of the edge values. -/
theorem scatterAdd_vec_apply {N E w : Nat} (φ : FTy)
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w)
    (upd : FVec Ideal ⟨1, ![E]⟩ φ) (p : Fin N) :
    Host.scatterAdd (F := Ideal) (vecScatterDims N E wf) x idx upd (ix1 p) =
      x (ix1 p) + ∑ e ∈ Finset.univ.filter (fun e : Fin E => (idx (ix2 e 0)).toInt = (p.val : ℤ)), upd (ix1 e) := by
  show Ideal.hostScatterAdd (vecScatterDims N E wf) x idx upd (ix1 p) = _
  unfold Ideal.hostScatterAdd
  congr 1
  rw [Finset.sum_filter, Finset.sum_filter, sum_idx1]
  refine Finset.sum_congr rfl fun e _ => ?_
  simp only [vecScatter_resultIdx_ix1_iff wf]

/-! ## The gather of a node vector `[N]` at edge endpoints `[E, 1]` -/

/-- The dimension numbers of a vector gather: result `[E]` with no offset axis; the operand's one axis is collapsed (a
    slice of one element), started at the single component of the start index `idx[e, 0]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the node value at the endpoint `idx[e, 0]`, read signed and clamped into
    `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) =
      x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0 +
    (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The index normalisation in front of a gather -/

/-- An index word `v` that reads, signed, as a node `p < N` is left alone by the wrap-around
    `if v < 0 then v + N else v` (it is not negative), and clamping it into `[0, N − 1]` does nothing (it is in range):
    the gather's clamped start is `p`. -/
theorem norm_of_lands (N : Nat) (hN : N < 2 ^ 31) (v : BitVec 32) (p : Fin N) (h : v.toInt = (p.val : ℤ)) :
    min (Scalar.select (IntOp.cmpi .slt v 0#32) (IntOp.addi v (BitVec.ofNat 32 N)) v).toInt.toNat (N - 1) = p.val := by
  have hslt : v.slt 0#32 = false := by
    simp [BitVec.slt, h]
  have hc : IntOp.cmpi .slt v 0#32 = 0#1 := by
    simp [IntOp.cmpi, hslt]
  rw [hc, select_zero, h]
  have := p.isLt
  omega

end Idealize.ShloMosaic.EdgeOps

end
-- ==== Proof.MessageSum.lean ====
/-
  The law that joins the two arrangements of the vertex update.

  Over the incidence entries `e ∈ I` that land on one vertex, the reference sums the per-entry rows
  `x · wa + u e · wb + b`, in which the first product and the bias do not depend on `e`. The kernel instead counts
  the entries (`deg = ∑ 1`), sums the gathered rows first (`s = ∑ u e`), and forms `deg · (x · wa + b) + s · wb`.
  For real numbers the two agree: a constant summed `deg` times is `deg` times the constant, and a product with a
  fixed matrix commutes with a finite sum. On the extended reals the same holds for values that are real, which is
  how it is stated here; it fails at infinities, where a product does not distribute over a sum.
-/
import Idealize.ShloMosaic.PureOps.Ideal
import Mathlib.Tactic.Ring
import Mathlib.Tactic.NormNum

noncomputable section

namespace Cert.SetConv

open scoped BigOperators

/-- The coercion of the reals into the extended reals commutes with finite sums. -/
theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 256 columns is the sum over the first 128 plus the sum over the last 128. -/
theorem sum_fin256 {M : Type} [AddCommMonoid M] (f : Fin 256 → M) :
    ∑ k, f k = (∑ l : Fin 128, f ⟨l.val, by omega⟩) + ∑ l : Fin 128, f ⟨128 + l.val, by omega⟩ := by
  have h := Fin.sum_univ_add (a := 128) (b := 128) (fun k : Fin (128 + 128) => f ⟨k.val, by have := k.isLt; omega⟩)
  have e : ∑ k : Fin (128 + 128), f ⟨k.val, by have := k.isLt; omega⟩ = ∑ k : Fin 256, f k :=
    Fintype.sum_equiv (finCongr (by norm_num)) _ _ (fun k => rfl)
  rw [← e, h]
  rfl

/-- The law over the reals. -/
theorem message_sum_real {ι : Type} {n : ℕ} (I : Finset ι) (x wa wb : Fin n → ℝ) (b : ℝ) (u : ι → Fin n → ℝ) :
    (0 : ℝ) + ∑ e ∈ I, (((∑ l, x l * wa l) + ∑ l, u e l * wb l) + b)
      = ((0 : ℝ) + ∑ _e ∈ I, (1 : ℝ)) * ((∑ l, x l * wa l) + b) + ∑ l, ((0 : ℝ) + ∑ e ∈ I, u e l) * wb l := by
  have h1 : ∑ e ∈ I, ∑ l, u e l * wb l = ∑ l, (∑ e ∈ I, u e l) * wb l := by
    rw [Finset.sum_comm]
    exact Finset.sum_congr rfl fun l _ => (Finset.sum_mul _ _ _).symm
  simp only [zero_add, Finset.sum_add_distrib, Finset.sum_const, nsmul_eq_mul, mul_one, h1]
  ring

/-- The law on the extended reals, for real values. -/
theorem message_sum {ι : Type} {n : ℕ} (I : Finset ι) (x wa wb : Fin n → ℝ) (b : ℝ) (u : ι → Fin n → ℝ) :
    ((0 : ℝ) : EReal) + ∑ e ∈ I, (((∑ l, (x l : EReal) * (wa l : EReal)) + ∑ l, (u e l : EReal) * (wb l : EReal)) + (b : EReal))
      = (((0 : ℝ) : EReal) + ∑ _e ∈ I, ((1 : ℝ) : EReal)) * ((∑ l, (x l : EReal) * (wa l : EReal)) + (b : EReal))
        + ∑ l, (((0 : ℝ) : EReal) + ∑ e ∈ I, (u e l : EReal)) * (wb l : EReal) := by
  have h := congrArg (fun r : ℝ => (r : EReal)) (message_sum_real I x wa wb b u)
  simpa only [EReal.coe_add, EReal.coe_mul, coe_finsum] using h

end Cert.SetConv

end
-- ==== Proof.RefMessage.lean ====
/-
  The reference's vertex message, read at an index.

  The reference gathers, for every incidence entry `e`, the vertex's own feature row and the hyperedge row, joins the
  two side by side into 256 columns, multiplies by the 256-row weight matrix, adds the bias, and scatter-adds the
  result to the entry's vertex. At vertex `p` and column `j` this is the sum, over the entries whose vertex index
  read signed is `p`, of `x[p,:] · W2[0:128, j] + u[e,:] · W2[128:256, j] + b2[j]`, where `u` are the gathered hyperedge
  rows: an entry that lands on `p` has a vertex index in range and not negative, so the gather's wrap-around and
  clamp leave it alone and the row it reads is row `p`.
-/
import proofs.«164495_j4355096839068_2_alg».proof.Proof.Gen.ReferenceIdeal.Read
import proofs.«164495_j4355096839068_2_alg».proof.Proof.LibEdgeScatterGather
import proofs.«164495_j4355096839068_2_alg».proof.Proof.MessageSum

noncomputable section

namespace Cert.ReferenceIdeal.RefValue

open Cert.ReferenceIdeal Cert.ReferenceIdeal.Gen Cert.ReferenceIdeal.Read
open Idealize.ShloMosaic Idealize.ShloMosaic.ValueIdx Idealize.ShloMosaic.EdgeOps

/-- The incidence entries whose vertex index, read signed, is `p`. -/
abbrev lands (x1 : IVec S800000 32) (p : Fin 50000) : Finset (Fin 800000) :=
  Finset.univ.filter fun e => (x1 (ix1 e)).toInt = (p.val : ℤ)

/-- The left half of the joined rows is the first piece. -/
theorem joined_left (a b : FVec Ideal S800000x128 .f32) (e : Fin 800000) (l : Fin 128) :
    concatenate S800000x256 1 [⟨S800000x128, a⟩, ⟨S800000x128, b⟩] concatenates_S800000x128_S800000x128_S800000x256_d1
      (ix2 e (⟨l.val, by omega⟩ : Fin 256)) = a (ix2 e l) :=
  concatenate_pair_apply_left 1 a b concatenates_S800000x128_S800000x128_S800000x256_d1 _ rfl (ix2 e l)
    (fun b => by match b with | ⟨0, _⟩ => rfl | ⟨1, _⟩ => rfl)

/-- The right half of the joined rows is the second piece. -/
theorem joined_right (a b : FVec Ideal S800000x128 .f32) (e : Fin 800000) (l : Fin 128) :
    concatenate S800000x256 1 [⟨S800000x128, a⟩, ⟨S800000x128, b⟩] concatenates_S800000x128_S800000x128_S800000x256_d1
      (ix2 e (⟨128 + l.val, by omega⟩ : Fin 256)) = b (ix2 e l) :=
  concatenate_pair_apply_right 1 a b concatenates_S800000x128_S800000x128_S800000x256_d1 _ rfl rfl (ix2 e l)
    (fun b hb => by
      match b with
      | ⟨0, _⟩ => rfl
      | ⟨1, _⟩ => exact absurd rfl hb)
    (by show l.val + 128 = 128 + l.val; omega)

/-- An entry that lands on vertex `p` gathers row `p` of the features. -/
theorem gathered_row_of_lands (x0 : FVec Ideal S50000x128 .f32) (x1 : IVec S800000 32) (e : Fin 800000) (p : Fin 50000)
    (h : (x1 (ix1 e)).toInt = (p.val : ℤ)) (l : Fin 128) :
    val_main_v27 (F := Ideal) x0 x1 (ix2 e l) = x0 (ix2 p l) := by
  unfold val_main_v27
  rw [show gather_S50000x128_S800000x1_S800000x128_1_0_n_n_0_1_1128
      = rowGatherDims 50000 800000 128 gather_S50000x128_S800000x1_S800000x128_1_0_n_n_0_1_1128_wf from rfl,
    gather_rows_apply (by norm_num)]
  have hi : idx_main_v26 (ix2 e (0 : Fin 1)) = ix1 e :=
    funext fun a => Fin.ext (by match a with | ⟨0, _⟩ => rfl)
  have hv : val_main_v26 (F := Ideal) x1 (ix2 e 0)
      = Scalar.select (IntOp.cmpi .slt (x1 (ix1 e)) 0#32) (IntOp.addi (x1 (ix1 e)) (BitVec.ofNat 32 50000)) (x1 (ix1 e)) := by
    rw [val_main_v26_apply, hi, val_main_v25_apply, val_main_v22_apply, val_main_v24_apply, val_main_v21_apply,
      val_main_v23_apply, val_main_c_3_apply, val_main_c_4_apply]
  refine congrArg x0 (congrArg (fun q => ix2 q l) (Fin.ext ?_))
  show min (val_main_v26 (F := Ideal) x1 (ix2 e 0)).toInt.toNat (50000 - 1) = p.val
  rw [hv]
  exact norm_of_lands 50000 (by norm_num) _ p h

/-- The reference's vertex message at vertex `p`, column `j`. -/
theorem message_apply (x0 : FVec Ideal S50000x128 .f32) (x1 x2 : IVec S800000 32) (x4 : FVec Ideal S128x128 .f32)
    (x5 : FVec Ideal S128 .f32) (x6 : FVec Ideal S256x128 .f32) (x7 : FVec Ideal S128 .f32) (p : Fin 50000) (j : Fin 128) :
    val_main_v35 (F := Ideal) x0 x1 x2 x4 x5 x6 x7 (ix2 p j)
      = Ideal.ofBits .f32 0x00000000#32 + ∑ e ∈ lands x1 p,
          (((∑ l : Fin 128, x0 (ix2 p l) * x6 (ix2 (⟨l.val, by omega⟩ : Fin 256) j))
            + ∑ l : Fin 128, val_main_v20 (F := Ideal) x0 x1 x2 x4 x5 (ix2 e l) * x6 (ix2 (⟨128 + l.val, by omega⟩ : Fin 256) j))
            + x7 (ix1 j)) := by
  unfold val_main_v35
  rw [show scatter_S50000x128_S800000x1_S800000x128_1_0_0_1
      = rowScatterDims 50000 800000 128 scatter_S50000x128_S800000x1_S800000x128_1_0_0_1_wf from rfl,
    scatterAdd_rows_apply]
  have hi : ∀ e : Fin 800000, idx_main_v34 (ix2 e (0 : Fin 1)) = ix1 e := fun e =>
    funext fun a => Fin.ext (by match a with | ⟨0, _⟩ => rfl)
  have hf : (Finset.univ.filter fun e : Fin 800000 => (val_main_v34 (F := Ideal) x1 (ix2 e 0)).toInt = (p.val : ℤ)) = lands x1 p := by
    refine Finset.filter_congr fun e _ => ?_
    rw [val_main_v34_apply, hi]
  rw [hf, val_main_v33_apply, val_main_cst_5_apply, Ideal.ofBits_def]
  refine congrArg (fun t => Ideal.ofBits .f32 0x00000000#32 + t) ?_
  refine Finset.sum_congr rfl fun e he => ?_
  have hl : (x1 (ix1 e)).toInt = (p.val : ℤ) := (Finset.mem_filter.mp he).2
  have el : ∀ k : Fin 256, lidx_main_v29 (ix2 e j) k = ix2 e k := fun k =>
    funext fun a => Fin.ext (by match a with | ⟨0, _⟩ => rfl | ⟨1, _⟩ => rfl)
  have er : ∀ k : Fin 256, ridx_main_v29 (ix2 e j) k = ix2 k j := fun k =>
    funext fun a => Fin.ext (by match a with | ⟨0, _⟩ => rfl | ⟨1, _⟩ => rfl)
  have eb : idx_main_v30 (idx_main_v31 (ix2 e j)) = ix1 j :=
    funext fun a => Fin.ext (by match a with | ⟨0, _⟩ => rfl)
  rw [val_main_v32_apply, val_main_v29_apply, val_main_v31_apply, val_main_v30_apply, eb, Ideal.addf_def]
  refine congrArg (fun t => t + x7 (ix1 j)) ?_
  simp only [el, er]
  rw [Cert.SetConv.sum_fin256]
  unfold val_main_v28
  refine congrArg₂ (fun s t => s + t) ?_ ?_
  · refine Finset.sum_congr rfl fun l _ => ?_
    rw [joined_left, gathered_row_of_lands x0 x1 e p hl l]
  · refine Finset.sum_congr rfl fun l _ => ?_
    rw [joined_right]

end Cert.ReferenceIdeal.RefValue

end
-- ==== Proof.LibRealness.lean ====
/-
  Realness (finiteness) of the entries of an array of extended reals, carried through the
  operations of a message-passing network read at the exact instance, and the two algebraic
  laws between the two arrangements of its affine steps.

  `IsReal v`: every entry of `v` is (the coercion of) a real number.
  `IsRealP P v`: every entry of `v` is a real number satisfying `P`.

  One closure lemma per operation: index re-arrangements (gather, broadcast, transpose, shape
  cast) read an entry of their operand; sums (scatter-add, reduce, contraction) add finitely
  many reals; the pointwise operations are the real ones on reals; a quotient by a nonzero
  real is the real quotient; the reciprocal square root of a positive real is a positive real.
-/
import Idealize.ShloMosaic.PureOps.Ideal
import Idealize.ShloMosaic.PureOps.Ideal.Laws
import Mathlib.Tactic.Ring
import Mathlib.Tactic.Positivity
import Mathlib.Tactic.NormNum

noncomputable section

namespace Cert.RealOps

open Idealize.ShloMosaic
open scoped BigOperators

/-! ## The predicates -/

/-- Every entry is a real number. -/
def IsReal {S : Shape} (v : S.Idx → EReal) : Prop := ∀ i, ∃ r : ℝ, v i = (r : EReal)

/-- Every entry is a real number with the property `P`. -/
def IsRealP (P : ℝ → Prop) {S : Shape} (v : S.Idx → EReal) : Prop := ∀ i, ∃ r : ℝ, P r ∧ v i = (r : EReal)

theorem IsRealP.isReal {P : ℝ → Prop} {S : Shape} {v : S.Idx → EReal} (h : IsRealP P v) : IsReal v :=
  fun i => let ⟨r, _, e⟩ := h i; ⟨r, e⟩

theorem IsRealP.mono {P Q : ℝ → Prop} (hPQ : ∀ r, P r → Q r) {S : Shape} {v : S.Idx → EReal} (h : IsRealP P v) :
    IsRealP Q v :=
  fun i => let ⟨r, p, e⟩ := h i; ⟨r, hPQ r p, e⟩

theorem IsReal.isRealP_true {S : Shape} {v : S.Idx → EReal} (h : IsReal v) : IsRealP (fun _ => True) v :=
  fun i => let ⟨r, e⟩ := h i; ⟨r, trivial, e⟩

/-! ## Scalar facts -/

/-- A finite sum of reals with a property closed under `0` and `+` is such a real. -/
theorem exists_coe_sum_of {P : ℝ → Prop} (h0 : P 0) (hadd : ∀ a b, P a → P b → P (a + b)) {ι : Type}
    (s : Finset ι) (f : ι → EReal) (hf : ∀ i ∈ s, ∃ r : ℝ, P r ∧ f i = (r : EReal)) :
    ∃ r : ℝ, P r ∧ ∑ i ∈ s, f i = (r : EReal) := by
  classical
  induction s using Finset.induction_on with
  | empty => exact ⟨0, h0, by simp⟩
  | insert a s ha ih =>
    obtain ⟨ra, pa, hra⟩ := hf a (Finset.mem_insert_self a s)
    obtain ⟨rs, ps, hrs⟩ := ih (fun i hi => hf i (Finset.mem_insert_of_mem hi))
    exact ⟨ra + rs, hadd _ _ pa ps, by rw [Finset.sum_insert ha, hra, hrs, EReal.coe_add]⟩

/-- A finite sum of reals is a real. -/
theorem exists_coe_sum {ι : Type} (s : Finset ι) (f : ι → EReal) (hf : ∀ i ∈ s, ∃ r : ℝ, f i = (r : EReal)) :
    ∃ r : ℝ, ∑ i ∈ s, f i = (r : EReal) := by
  obtain ⟨r, _, e⟩ := exists_coe_sum_of (P := fun _ => True) trivial (fun _ _ _ _ => trivial) s f
    (fun i hi => let ⟨r, e⟩ := hf i hi; ⟨r, trivial, e⟩)
  exact ⟨r, e⟩

/-- A finite sum of nonnegative reals is a nonnegative real. -/
theorem exists_coe_sum_nonneg {ι : Type} (s : Finset ι) (f : ι → EReal)
    (hf : ∀ i ∈ s, ∃ r : ℝ, 0 ≤ r ∧ f i = (r : EReal)) : ∃ r : ℝ, 0 ≤ r ∧ ∑ i ∈ s, f i = (r : EReal) :=
  exists_coe_sum_of (P := fun r => 0 ≤ r) le_rfl (fun _ _ => add_nonneg) s f hf

/-- The maximum of two reals, as an extended real. -/
theorem coe_max (a b : ℝ) : max (a : EReal) (b : EReal) = ((max a b : ℝ) : EReal) :=
  (EReal.coe_strictMono.monotone.map_max).symm

/-- The quotient of two reals, the divisor nonzero, is the real quotient. -/
theorem div_coe_coe (a b : ℝ) (hb : b ≠ 0) : Ideal.div (a : EReal) (b : EReal) = ((a / b : ℝ) : EReal) := by
  rw [Ideal.div_coe hb, ← EReal.coe_mul, mul_one_div]

/-- The reciprocal square root of a positive real is the real one. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-! ## The literals -/

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul] <;> norm_num

theorem ofBits_50000 : Ideal.ofBits .f32 0x47435000#32 = ((50000 : ℝ) : EReal) := by
  simp [Ideal.ofBits, Ideal.ieee, -EReal.coe_mul] <;> norm_num

/-- The word `0x3727C5AC` denotes a positive real. -/
theorem ofBits_eps : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul] <;> norm_num

/-! ## Index re-arrangements: an entry of the result is an entry of the operand -/

theorem isReal_gather {s si t : Shape} {w : Nat} (d : GatherDims s si t) (x : s.Idx → EReal) (idx : IVec si w)
    (hx : IsReal x) : IsReal (Host.gather d x idx) :=
  fun _ => hx _

theorem isRealP_gather {P : ℝ → Prop} {s si t : Shape} {w : Nat} (d : GatherDims s si t) (x : s.Idx → EReal)
    (idx : IVec si w) (hx : IsRealP P x) : IsRealP P (Host.gather d x idx) :=
  fun _ => hx _

theorem isReal_broadcastInDim {s t : Shape} (dims : Fin s.rank → Fin t.rank) (h : s.BroadcastsInDim t dims)
    (x : s.Idx → EReal) (hx : IsReal x) : IsReal (broadcastInDim t dims h x) :=
  fun _ => hx _

theorem isRealP_broadcastInDim {P : ℝ → Prop} {s t : Shape} (dims : Fin s.rank → Fin t.rank)
    (h : s.BroadcastsInDim t dims) (x : s.Idx → EReal) (hx : IsRealP P x) : IsRealP P (broadcastInDim t dims h x) :=
  fun _ => hx _

theorem isReal_transpose {s t : Shape} (perm : List (Fin s.rank)) (x : s.Idx → EReal) (h : s.Transposes perm t)
    (hx : IsReal x) : IsReal (transpose t perm x h) :=
  fun _ => hx _

theorem isReal_shapeCast {s t : Shape} (x : s.Idx → EReal) (h : s.ShapeCasts t) (hx : IsReal x) :
    IsReal (shapeCast t x h) :=
  fun _ => hx _

theorem isRealP_shapeCast {P : ℝ → Prop} {s t : Shape} (x : s.Idx → EReal) (h : s.ShapeCasts t) (hx : IsRealP P x) :
    IsRealP P (shapeCast t x h) :=
  fun _ => hx _

/-! ## Constants -/

theorem isReal_constant {s : Shape} (b : BitVec 32) (hb : ∃ r : ℝ, Ideal.ofBits .f32 b = (r : EReal)) :
    IsReal (constant (F := Ideal) s .f32 b) :=
  fun _ => hb

theorem isRealP_constant {P : ℝ → Prop} {s : Shape} (b : BitVec 32)
    (hb : ∃ r : ℝ, P r ∧ Ideal.ofBits .f32 b = (r : EReal)) : IsRealP P (constant (F := Ideal) s .f32 b) :=
  fun _ => hb

theorem isReal_constant_zero {s : Shape} : IsReal (constant (F := Ideal) s .f32 0x00000000#32) :=
  isReal_constant _ ⟨0, ofBits_zero⟩

theorem isRealP_constant_zero {s : Shape} : IsRealP (fun r => 0 ≤ r) (constant (F := Ideal) s .f32 0x00000000#32) :=
  isRealP_constant _ ⟨0, le_rfl, ofBits_zero⟩

theorem isReal_constant_one {s : Shape} : IsReal (constant (F := Ideal) s .f32 0x3F800000#32) :=
  isReal_constant _ ⟨1, ofBits_one⟩

theorem isRealP_constant_one {s : Shape} : IsRealP (fun r => 1 ≤ r) (constant (F := Ideal) s .f32 0x3F800000#32) :=
  isRealP_constant _ ⟨1, le_rfl, ofBits_one⟩

theorem isReal_constant_50000 {s : Shape} : IsReal (constant (F := Ideal) s .f32 0x47435000#32) :=
  isReal_constant _ ⟨50000, ofBits_50000⟩

theorem isRealP_constant_50000 {s : Shape} : IsRealP (fun r => 0 < r) (constant (F := Ideal) s .f32 0x47435000#32) :=
  isRealP_constant _ ⟨50000, by norm_num, ofBits_50000⟩

theorem isRealP_constant_eps {s : Shape} : IsRealP (fun r => 0 < r) (constant (F := Ideal) s .f32 0x3727C5AC#32) :=
  isRealP_constant _ ofBits_eps

/-- An integer read signed is a real. -/
theorem isReal_sitofp {s : Shape} {w : Nat} (x : IVec s w) : IsReal (sitofp (F := Ideal) .f32 x) :=
  fun i => ⟨((x i).toInt : ℝ), rfl⟩

/-! ## Pointwise operations -/

section Pointwise
variable {s : Shape} {φ : FTy} (x y : FVec Ideal s φ)

theorem isReal_addf (hx : IsReal x) (hy : IsReal y) : IsReal (addf x y) := fun i => by
  obtain ⟨a, ha⟩ := hx i; obtain ⟨b, hb⟩ := hy i
  exact ⟨a + b, by show x i + y i = _; rw [ha, hb, EReal.coe_add]⟩

theorem isReal_subf (hx : IsReal x) (hy : IsReal y) : IsReal (subf x y) := fun i => by
  obtain ⟨a, ha⟩ := hx i; obtain ⟨b, hb⟩ := hy i
  exact ⟨a - b, by show x i - y i = _; rw [ha, hb, EReal.coe_sub]⟩

theorem isReal_mulf (hx : IsReal x) (hy : IsReal y) : IsReal (mulf x y) := fun i => by
  obtain ⟨a, ha⟩ := hx i; obtain ⟨b, hb⟩ := hy i
  exact ⟨a * b, by show x i * y i = _; rw [ha, hb, EReal.coe_mul]⟩

theorem isReal_maximumf (hx : IsReal x) (hy : IsReal y) : IsReal (maximumf x y) := fun i => by
  obtain ⟨a, ha⟩ := hx i; obtain ⟨b, hb⟩ := hy i
  exact ⟨max a b, by show max (x i) (y i) = _; rw [ha, hb, coe_max]⟩

/-- The maximum with an array of reals `≥ c` is an array of reals `≥ c`. -/
theorem isRealP_ge_maximumf_right (c : ℝ) (hx : IsReal x) (hy : IsRealP (fun r => c ≤ r) y) :
    IsRealP (fun r => c ≤ r) (maximumf x y) := fun i => by
  obtain ⟨a, ha⟩ := hx i; obtain ⟨b, hc, hb⟩ := hy i
  exact ⟨max a b, le_trans hc (le_max_right a b), by show max (x i) (y i) = _; rw [ha, hb, coe_max]⟩

/-- A square of reals is a nonnegative real. -/
theorem isRealP_nonneg_mulf_self (hx : IsReal x) : IsRealP (fun r => 0 ≤ r) (mulf x x) := fun i => by
  obtain ⟨a, ha⟩ := hx i
  exact ⟨a * a, mul_self_nonneg a, by show x i * x i = _; rw [ha, EReal.coe_mul]⟩

/-- A nonnegative real plus a positive real is a positive real. -/
theorem isRealP_pos_addf (hx : IsRealP (fun r => 0 ≤ r) x) (hy : IsRealP (fun r => 0 < r) y) :
    IsRealP (fun r => 0 < r) (addf x y) := fun i => by
  obtain ⟨a, pa, ha⟩ := hx i; obtain ⟨b, pb, hb⟩ := hy i
  exact ⟨a + b, add_pos_of_nonneg_of_pos pa pb, by show x i + y i = _; rw [ha, hb, EReal.coe_add]⟩

/-- The host quotient of reals by nonzero reals is real. -/
theorem isReal_hostDivf (hx : IsReal x) (hy : IsRealP (fun r => r ≠ 0) y) : IsReal (Host.divf x y) := fun i => by
  obtain ⟨a, ha⟩ := hx i; obtain ⟨b, pb, hb⟩ := hy i
  exact ⟨a / b, by show Ideal.div (x i) (y i) = _; rw [ha, hb, div_coe_coe a b pb]⟩

/-- ... in particular by reals `≥ 1` (a count, or one where the count is zero). -/
theorem isReal_hostDivf_of_ge_one (hx : IsReal x) (hy : IsRealP (fun r => 1 ≤ r) y) : IsReal (Host.divf x y) :=
  isReal_hostDivf x y hx (hy.mono fun r h => (lt_of_lt_of_le one_pos h).ne')

/-- ... and by positive reals (a positive literal). -/
theorem isReal_hostDivf_of_pos (hx : IsReal x) (hy : IsRealP (fun r => 0 < r) y) : IsReal (Host.divf x y) :=
  isReal_hostDivf x y hx (hy.mono fun _ h => h.ne')

/-- A nonnegative real over a positive real is a nonnegative real. -/
theorem isRealP_nonneg_hostDivf (hx : IsRealP (fun r => 0 ≤ r) x) (hy : IsRealP (fun r => 0 < r) y) :
    IsRealP (fun r => 0 ≤ r) (Host.divf x y) := fun i => by
  obtain ⟨a, pa, ha⟩ := hx i; obtain ⟨b, pb, hb⟩ := hy i
  exact ⟨a / b, div_nonneg pa pb.le, by show Ideal.div (x i) (y i) = _; rw [ha, hb, div_coe_coe a b pb.ne']⟩

/-- The host reciprocal square root of positive reals is positive reals. -/
theorem isRealP_pos_hostRsqrt (hx : IsRealP (fun r => 0 < r) x) : IsRealP (fun r => 0 < r) (Host.rsqrt x) := fun i => by
  obtain ⟨a, pa, ha⟩ := hx i
  exact ⟨(Real.sqrt a)⁻¹, inv_pos.mpr (Real.sqrt_pos.mpr pa), by
    show Ideal.rsqrt (x i) = _; rw [ha, rsqrt_coe_pos a pa]⟩

theorem isReal_hostRsqrt (hx : IsRealP (fun r => 0 < r) x) : IsReal (Host.rsqrt x) :=
  (isRealP_pos_hostRsqrt x hx).isReal

end Pointwise

/-! ## Sums -/

/-- The accumulating scatter: the operand's entry plus finitely many entries of the update. -/
theorem isReal_scatterAdd {s si u : Shape} {w : Nat} {φ : FTy} (d : ScatterDims s si u) (x : FVec Ideal s φ)
    (idx : IVec si w) (upd : FVec Ideal u φ) (hx : IsReal x) (hu : IsReal upd) :
    IsReal (Host.scatterAdd (F := Ideal) d x idx upd) := fun i => by
  obtain ⟨a, ha⟩ := hx i
  obtain ⟨b, hb⟩ := exists_coe_sum (Finset.univ.filter (fun j => d.resultIdx? j idx = some i)) upd (fun j _ => hu j)
  exact ⟨a + b, by
    show x i + ∑ j ∈ Finset.univ.filter (fun j => d.resultIdx? j idx = some i), upd j = _
    rw [ha, hb, EReal.coe_add]⟩

/-- The host sum over some axes: the initial value plus finitely many entries of the operand. -/
theorem isReal_reduceAdd {s t u : Shape} {φ : FTy} {axes : List (Fin s.rank)} (x : FVec Ideal s φ)
    (init : u.Idx → Ideal φ) (h : s.ReducesTo axes t) (hu : 0 < u.numel) (hx : IsReal x) (hi : IsReal init) :
    IsReal (Host.reduceAdd (F := Ideal) x init h hu) := fun j => by
  obtain ⟨a, ha⟩ := hi (Shape.Idx.first hu)
  obtain ⟨b, hb⟩ := exists_coe_sum (Finset.univ.filter (fun i => h.drop i = j)) x (fun i _ => hx i)
  exact ⟨a + b, by
    show init (Shape.Idx.first hu) + ∑ i ∈ Finset.univ.filter (fun i => h.drop i = j), x i = _
    rw [ha, hb, EReal.coe_add]⟩

/-- The same sum of nonnegative reals from a nonnegative initial value is a nonnegative real. -/
theorem isRealP_nonneg_reduceAdd {s t u : Shape} {φ : FTy} {axes : List (Fin s.rank)} (x : FVec Ideal s φ)
    (init : u.Idx → Ideal φ) (h : s.ReducesTo axes t) (hu : 0 < u.numel) (hx : IsRealP (fun r => 0 ≤ r) x)
    (hi : IsRealP (fun r => 0 ≤ r) init) : IsRealP (fun r => 0 ≤ r) (Host.reduceAdd (F := Ideal) x init h hu) := fun j => by
  obtain ⟨a, pa, ha⟩ := hi (Shape.Idx.first hu)
  obtain ⟨b, pb, hb⟩ := exists_coe_sum_nonneg (Finset.univ.filter (fun i => h.drop i = j)) x (fun i _ => hx i)
  exact ⟨a + b, add_nonneg pa pb, by
    show init (Shape.Idx.first hu) + ∑ i ∈ Finset.univ.filter (fun i => h.drop i = j), x i = _
    rw [ha, hb, EReal.coe_add]⟩

/-- A contraction of two arrays of reals (the host product, any dimension record) is an array of reals. -/
theorem isReal_dotGeneral {sl sr so : Shape} {φ₁ φ₂ : FTy} (d : DotDims sl sr so) (prec : Option ContractPrecision)
    (lhs : FVec Ideal sl φ₁) (rhs : FVec Ideal sr φ₂) (hl : IsReal lhs) (hr : IsReal rhs) :
    IsReal (Host.dotGeneral d prec lhs rhs) := fun j => by
  obtain ⟨b, hb⟩ := exists_coe_sum (Finset.univ : Finset d.contr.Idx)
    (fun k => lhs (d.lhsIdx j k) * rhs (d.rhsIdx j k)) (fun k _ => by
      obtain ⟨p, hp⟩ := hl (d.lhsIdx j k); obtain ⟨q, hq⟩ := hr (d.rhsIdx j k)
      exact ⟨p * q, by rw [hp, hq, EReal.coe_mul]⟩)
  exact ⟨b, by rw [Host.dotGeneral, Ideal.dotGeneral_apply]; exact hb⟩

/-- The matrix unit's contraction onto an accumulator of reals likewise. -/
theorem isReal_matmul {sl sr so : Shape} {φ₁ φ₂ : FTy} (d : DotDims sl sr so) (prec : Option ContractPrecision)
    (lhs : FVec Ideal sl φ₁) (rhs : FVec Ideal sr φ₂) (acc : FVec Ideal so .f32) (hl : IsReal lhs) (hr : IsReal rhs)
    (ha : IsReal acc) : IsReal (FloatOps.matmul d prec lhs rhs acc) := fun j => by
  obtain ⟨a, ha⟩ := ha j
  obtain ⟨b, hb⟩ := exists_coe_sum (Finset.univ : Finset d.contr.Idx)
    (fun k => lhs (d.lhsIdx j k) * rhs (d.rhsIdx j k)) (fun k _ => by
      obtain ⟨p, hp⟩ := hl (d.lhsIdx j k); obtain ⟨q, hq⟩ := hr (d.rhsIdx j k)
      exact ⟨p * q, by rw [hp, hq, EReal.coe_mul]⟩)
  exact ⟨a + b, by rw [Ideal.matmul_apply, ha, hb, EReal.coe_add]⟩

/-! ## Compare and select -/

/-- A select whose predicate is true everywhere is its first branch. -/
theorem select_of_all_one {s : Shape} {α : Type} (c : IVec s 1) (a b : s.Idx → α) (hc : ∀ i, c i = 1#1) :
    select c a b = a :=
  funext fun i => by show (if c i = 1 then a i else b i) = a i; exact if_pos (hc i)

/-- The same when the predicate is a broadcast one. -/
theorem select_broadcast_of_all_one {s t : Shape} {α : Type} (dims : Fin s.rank → Fin t.rank)
    (h : s.BroadcastsInDim t dims) (c : IVec s 1) (a b : t.Idx → α) (hc : ∀ i, c i = 1#1) :
    select (broadcastInDim t dims h c) a b = a :=
  select_of_all_one _ _ _ (fun _ => hc _)

/-- `x > y` on reals, as the comparison's bit. -/
theorem cmpf_ogt_coe {s : Shape} {φ : FTy} (x y : FVec Ideal s φ) (i : s.Idx) (a b : ℝ) (hx : x i = (a : EReal))
    (hy : y i = (b : EReal)) (h : b < a) : cmpf .ogt x y i = 1#1 := by
  show BitVec.ofBool (decide (y i < x i)) = 1#1
  rw [hx, hy, decide_eq_true (EReal.coe_lt_coe_iff.mpr h)]; rfl

/-! ## The variance chain

The variance over some axes as it is computed: the sum over those axes divided by 50000 is the mean; the
deviations from the (broadcast) mean are squared and summed; the divisor is 50000 less the integer 0 read as a
float, which is positive, so the guard `divisor > 0` holds and the guarded result is the sum of squares over the
divisor: a nonnegative real when the operand is real. -/

section Variance
variable {S T T1 S0 : Shape} {ax : List (Fin S.rank)}
  (rd : S.ReducesTo ax T) (hu : 0 < S0.numel)
  {d1 : Fin T.rank → Fin T1.rank} (b1 : T.BroadcastsInDim T1 d1)
  {d2 : Fin S0.rank → Fin T1.rank} (b2 : S0.BroadcastsInDim T1 d2)
  {d3 : Fin T1.rank → Fin S.rank} (b3 : T1.BroadcastsInDim S d3)
  {d4 : Fin S0.rank → Fin T.rank} (b4 : S0.BroadcastsInDim T d4)

/-- The divisor, 50000 − 0, is the real 50000 at every index. -/
theorem dof_eq (i : S0.Idx) :
    subf (constant (F := Ideal) S0 .f32 0x47435000#32) (sitofp .f32 (constantI S0 32 0#32)) i = ((50000 : ℝ) : EReal) := by
  show Ideal.ofBits .f32 0x47435000#32 - ((((0#32 : BitVec 32).toInt : ℤ) : ℝ) : EReal) = _
  rw [ofBits_50000]; simp

theorem isRealP_pos_dof :
    IsRealP (fun r => 0 < r) (subf (constant (F := Ideal) S0 .f32 0x47435000#32) (sitofp .f32 (constantI S0 32 0#32))) :=
  fun i => ⟨50000, by norm_num, dof_eq i⟩

/-- The sum over the axes is real. -/
theorem isReal_sumOver (h : FVec Ideal S .f32) (hh : IsReal h) :
    IsReal (Host.reduceAdd (F := Ideal) h (constant S0 .f32 0x00000000#32) rd hu) :=
  isReal_reduceAdd h _ rd hu hh isReal_constant_zero

/-- The mean over the axes (the sum over a broadcast 50000) is real. -/
theorem isReal_meanOver (h : FVec Ideal S .f32) (hh : IsReal h) :
    IsReal (Host.divf (Host.reduceAdd (F := Ideal) h (constant S0 .f32 0x00000000#32) rd hu)
      (broadcastInDim T d4 b4 (constant S0 .f32 0x47435000#32))) :=
  isReal_hostDivf_of_pos _ _ (isReal_sumOver rd hu h hh) (isRealP_broadcastInDim d4 b4 _ isRealP_constant_50000)

/-- The deviations from the mean are real. -/
theorem isReal_centred (h : FVec Ideal S .f32) (hh : IsReal h) :
    IsReal (subf h (broadcastInDim S d3 b3
      (Host.divf (broadcastInDim T1 d1 b1 (Host.reduceAdd (F := Ideal) h (constant S0 .f32 0x00000000#32) rd hu))
        (broadcastInDim T1 d2 b2 (constant S0 .f32 0x47435000#32))))) :=
  isReal_subf _ _ hh (isReal_broadcastInDim d3 b3 _
    (isReal_hostDivf_of_pos _ _ (isReal_broadcastInDim d1 b1 _ (isReal_sumOver rd hu h hh))
      (isRealP_broadcastInDim d2 b2 _ isRealP_constant_50000)))

/-- The guarded variance of an array of reals is an array of nonnegative reals. -/
theorem isRealP_nonneg_variance (h : FVec Ideal S .f32) (hh : IsReal h) :
    IsRealP (fun r => 0 ≤ r)
      (select
        (broadcastInDim T d4 b4
          (cmpf CmpFPredicate.ogt
            (subf (constant (F := Ideal) S0 .f32 0x47435000#32) (sitofp .f32 (constantI S0 32 0#32)))
            (constant S0 .f32 0x00000000#32)))
        (Host.divf
          (Host.reduceAdd (F := Ideal)
            (mulf
              (subf h (broadcastInDim S d3 b3
                (Host.divf (broadcastInDim T1 d1 b1 (Host.reduceAdd (F := Ideal) h (constant S0 .f32 0x00000000#32) rd hu))
                  (broadcastInDim T1 d2 b2 (constant S0 .f32 0x47435000#32)))))
              (subf h (broadcastInDim S d3 b3
                (Host.divf (broadcastInDim T1 d1 b1 (Host.reduceAdd (F := Ideal) h (constant S0 .f32 0x00000000#32) rd hu))
                  (broadcastInDim T1 d2 b2 (constant S0 .f32 0x47435000#32))))))
            (constant S0 .f32 0x00000000#32) rd hu)
          (broadcastInDim T d4 b4
            (subf (constant (F := Ideal) S0 .f32 0x47435000#32) (sitofp .f32 (constantI S0 32 0#32)))))
        (broadcastInDim T d4 b4 (id (constant (F := Ideal) S0 .f32 0x7FC00000#32)))) := by
  rw [select_broadcast_of_all_one d4 b4 _ _ _ (fun i =>
    cmpf_ogt_coe _ _ i 50000 0 (dof_eq i) ofBits_zero (by norm_num))]
  exact isRealP_nonneg_hostDivf _ _
    (isRealP_nonneg_reduceAdd _ _ rd hu (isRealP_nonneg_mulf_self _ (isReal_centred rd hu b1 b2 b3 h hh))
      isRealP_constant_zero)
    (isRealP_broadcastInDim d4 b4 _ isRealP_pos_dof)

end Variance

/-! ## The two laws -/

/-- Normalise, scale, shift — or fold scale and shift first: equal on reals. -/
theorem bn_scalar_law (h mu r g b : ℝ) :
    max ((((h : EReal) - mu) * r) * g + b) 0
      = max ((h : EReal) * ((g : EReal) * r) + ((b : EReal) - mu * ((g : EReal) * r))) 0 := by
  have e : ((h - mu) * r) * g + b = h * (g * r) + (b - mu * (g * r)) := by ring
  have e' := congrArg (fun t : ℝ => (t : EReal)) e
  simp only [EReal.coe_add, EReal.coe_mul, EReal.coe_sub] at e'
  rw [e']

/-- Three summands, the last two exchanged: no finiteness needed. -/
theorem add_order_law (a b c : EReal) : (a + b) + c = (a + c) + b := add_right_comm a b c

end Cert.RealOps

end
-- ==== Proof.MessageBridge.lean ====
/-
  The kernel's vertex message is the reference's.

  Both programs compute the same dense layer `y` of the features and the same hyperedge rows `u` gathered back to the
  incidence entries. The kernel then forms, at vertex `p` and column `j`,
  `deg[p] · (x[p,:] · W2[0:128, j] + b2[j]) + (∑_{e lands on p} u[e,:]) · W2[128:256, j]`, with `deg[p]` the number
  of entries landing on `p`, while the reference sums `x[p,:] · W2[0:128, j] + u[e,:] · W2[128:256, j] + b2[j]` over those
  entries. Every quantity here is a real number once the float arguments are finite — `y`, hence `u`, are finite sums
  of products of reals — and for reals the two are equal (`Cert.SetConv.message_sum`).
-/
import proofs.«164495_j4355096839068_2_alg».proof.Proof.RefMessage
import proofs.«164495_j4355096839068_2_alg».proof.Proof.KernelOperands
import proofs.«164495_j4355096839068_2_alg».proof.Proof.LibRealness
import proofs.«164495_j4355096839068_2_alg».proof.Proof.LibKeepdims
import Idealize.ShloMosaic.Lib.ValueLayout

noncomputable section

namespace Cert.SetConv.Bridge

open Cert.ReferenceIdeal Cert.ReferenceIdeal.Read Cert.ReferenceIdeal.RefValue
open Cert.KernelIdeal.Operands
open Cert.RealOps
open Idealize.ShloMosaic Idealize.ShloMosaic.ValueIdx Idealize.ShloMosaic.EdgeOps

variable (x0 : FVec Ideal S50000x128 .f32) (x1 x2 : IVec S800000 32) (x4 : FVec Ideal S128x128 .f32)
  (x5 : FVec Ideal S128 .f32) (x6 : FVec Ideal S256x128 .f32) (x7 : FVec Ideal S128 .f32)

/-! ## The operands read at an index -/

/-- A bias as a row reads the bias. -/
theorem biasRow_apply (b : FVec Ideal S128 .f32) (j : Fin 128) : biasRow (F := Ideal) b (ix2 (0 : Fin 1) j) = b (ix1 j) :=
  shapeCast_a_1a_apply b _ 0 j

/-- A bias reshaped to a row is the reference's bias broadcast to a row. -/
theorem biasRow_eq_ref (b : FVec Ideal S128 .f32) : biasRow (F := Ideal) b = val_main_v42 (F := Ideal) b := by
  funext i
  obtain ⟨u, j, rfl⟩ : ∃ (u : Fin 1) (j : Fin 128), i = ix2 u j := ⟨i 0, i 1, eq_ix2 i⟩
  obtain rfl : u = 0 := Subsingleton.elim _ _
  rw [biasRow_apply, val_main_v42_apply]
  exact congrArg b (funext fun a => Fin.ext (by match a with | ⟨0, _⟩ => rfl))

/-- An index vector as a column reads the vector. -/
theorem idxCol_apply (x : IVec S800000 32) (e : Fin 800000) : idxCol x (ix2 e (0 : Fin 1)) = x (ix1 e) := by
  show val_main_v34 (F := Ideal) x (ix2 e 0) = _
  rw [val_main_v34_apply]
  exact congrArg x (funext fun a => Fin.ext (by match a with | ⟨0, _⟩ => rfl))

/-- A scalar constant broadcast to any shape reads the constant. -/
theorem splat_apply {t : Shape} (h : (⟨0, ![]⟩ : Shape).BroadcastsInDim t ![]) (w : BitVec 32) (i : t.Idx) :
    broadcastInDim t ![] h (constant (F := Ideal) ⟨0, ![]⟩ .f32 w) i = Ideal.ofBits .f32 w :=
  broadcastInDim_apply _ h _ i (fun a => a.elim0) (fun a => a.elim0)

/-- The entries a scatter-add sends to vertex `p` are those landing on `p`. -/
theorem filter_lands (p : Fin 50000) :
    (Finset.univ.filter fun e : Fin 800000 => (idxCol x1 (ix2 e 0)).toInt = (p.val : ℤ)) = lands x1 p :=
  Finset.filter_congr fun e _ => by rw [idxCol_apply]

/-- The degree column at `p`: zero plus a one per entry landing on `p`. -/
theorem degreeCol_apply (p : Fin 50000) :
    degreeCol (F := Ideal) x1 (ix2 p (0 : Fin 1))
      = Ideal.ofBits .f32 0x00000000#32 + ∑ _e ∈ lands x1 p, Ideal.ofBits .f32 0x3F800000#32 := by
  unfold degreeCol
  rw [Cert.Keepdims.shapeCast_a_a1_apply]
  unfold degree
  rw [show Cert.KernelIdeal.scatter_S50000_S800000x1_S800000_n_0_0_1
      = vecScatterDims 50000 800000 Cert.KernelIdeal.Gen.scatter_S50000_S800000x1_S800000_n_0_0_1_wf from rfl,
    scatterAdd_vec_apply, filter_lands, splat_apply]
  refine congrArg (fun t => Ideal.ofBits .f32 0x00000000#32 + t) ?_
  exact Finset.sum_congr rfl fun e _ => splat_apply _ _ _

/-- The scatter-added rows at `(p, l)`: zero plus the gathered row of every entry landing on `p`. -/
theorem gatheredSum_apply (y : FVec Ideal S50000x128 .f32) (p : Fin 50000) (l : Fin 128) :
    gatheredSum (F := Ideal) y x1 x2 (ix2 p l)
      = Ideal.ofBits .f32 0x00000000#32 + ∑ e ∈ lands x1 p, edgeRows (F := Ideal) y x1 x2 (ix2 e l) := by
  unfold gatheredSum
  rw [show Cert.KernelIdeal.scatter_S50000x128_S800000x1_S800000x128_1_0_0_1
      = rowScatterDims 50000 800000 128 Cert.KernelIdeal.Gen.scatter_S50000x128_S800000x1_S800000x128_1_0_0_1_wf from rfl,
    scatterAdd_rows_apply, filter_lands, splat_apply]

/-- The top half of the weight matrix. -/
theorem weightTop_apply (l j : Fin 128) : weightTop (F := Ideal) x6 (ix2 l j) = x6 (ix2 (⟨l.val, by omega⟩ : Fin 256) j) :=
  slice2_axis0_apply 0 x6 _ l j _ (by simp)

/-- The bottom half of the weight matrix. -/
theorem weightBottom_apply (l j : Fin 128) : weightBottom (F := Ideal) x6 (ix2 l j) = x6 (ix2 (⟨128 + l.val, by omega⟩ : Fin 256) j) :=
  slice2_axis0_apply 128 x6 _ l j _ rfl

/-! ## The shared prefix -/

/-- The kernel's dense layer is the reference's. -/
theorem dense_eq_ref : Cert.SetConv.dense x0 x4 (biasRow (F := Ideal) x5) = val_main_v3 (F := Ideal) x0 x4 x5 := by
  funext i
  obtain ⟨p, j, rfl⟩ : ∃ (p : Fin 50000) (j : Fin 128), i = ix2 p j := ⟨i 0, i 1, eq_ix2 i⟩
  have e1 : ∀ k : Fin 128, lidx_main_v0 (ix2 p j) k = ix2 p k := fun k =>
    funext fun a => Fin.ext (by match a with | ⟨0, _⟩ => rfl | ⟨1, _⟩ => rfl)
  have e2 : ∀ k : Fin 128, ridx_main_v0 (ix2 p j) k = ix2 k j := fun k =>
    funext fun a => Fin.ext (by match a with | ⟨0, _⟩ => rfl | ⟨1, _⟩ => rfl)
  have e3 : idx_main_v1 (idx_main_v2 (ix2 p j)) = ix1 j :=
    funext fun a => Fin.ext (by match a with | ⟨0, _⟩ => rfl)
  show (∑ k : Fin 128, x0 (ix2 p k) * x4 (ix2 k j)) + biasRow (F := Ideal) x5 (ix2 (0 : Fin 1) j) = _
  rw [val_main_v3_apply, val_main_v0_apply, val_main_v2_apply, val_main_v1_apply, e3, Ideal.addf_def, biasRow_apply]
  refine congrArg (fun t => t + x5 (ix1 j)) ?_
  exact Finset.sum_congr rfl fun k _ => by rw [e1, e2]

/-- The kernel's gathered hyperedge rows, over the reference's dense layer, are the reference's. -/
theorem edgeRows_eq_ref :
    (edgeRows (F := Ideal) (val_main_v3 (F := Ideal) x0 x4 x5) x1 x2 : FVec Ideal S800000x128 .f32)
      = val_main_v20 (F := Ideal) x0 x1 x2 x4 x5 := rfl

/-- The gathered hyperedge rows are real when the features, the first weights and the first bias are. -/
theorem isReal_edgeRows (h0 : IsReal (S := S50000x128) x0) (h4 : IsReal (S := S128x128) x4) (h5 : IsReal (S := S128) x5) :
    IsReal (S := S800000x128) (val_main_v20 (F := Ideal) x0 x1 x2 x4 x5) := by
  have hy : IsReal (S := S50000x128) (val_main_v3 (F := Ideal) x0 x4 x5) :=
    isReal_addf _ _ (isReal_dotGeneral _ _ _ _ h0 h4) (isReal_broadcastInDim _ _ _ (isReal_broadcastInDim _ _ _ h5))
  exact isReal_gather _ _ _ (isReal_scatterAdd _ _ _ _ (isReal_broadcastInDim _ _ _ isReal_constant_zero)
    (isReal_gather _ _ _ hy))

/-! ## The two arrangements agree -/

/-- The kernel's vertex message, from its own operands, is the reference's scatter-added message. -/
theorem message_eq_ref (h0 : IsReal (S := S50000x128) x0) (h4 : IsReal (S := S128x128) x4) (h5 : IsReal (S := S128) x5)
    (h6 : IsReal (S := S256x128) x6) (h7 : IsReal (S := S128) x7) :
    Cert.SetConv.message x0 (weightTop (F := Ideal) x6) (biasRow (F := Ideal) x7) (degreeCol (F := Ideal) x1)
        (gatheredSum (F := Ideal) (Cert.SetConv.dense x0 x4 (biasRow (F := Ideal) x5)) x1 x2) (weightBottom (F := Ideal) x6)
      = val_main_v35 (F := Ideal) x0 x1 x2 x4 x5 x6 x7 := by
  funext i
  obtain ⟨p, j, rfl⟩ : ∃ (p : Fin 50000) (j : Fin 128), i = ix2 p j := ⟨i 0, i 1, eq_ix2 i⟩
  rw [message_apply, dense_eq_ref]
  show degreeCol (F := Ideal) x1 (ix2 p (0 : Fin 1))
        * ((∑ l : Fin 128, x0 (ix2 p l) * weightTop (F := Ideal) x6 (ix2 l j)) + biasRow (F := Ideal) x7 (ix2 (0 : Fin 1) j))
      + ∑ l : Fin 128, gatheredSum (F := Ideal) (val_main_v3 (F := Ideal) x0 x4 x5) x1 x2 (ix2 p l) * weightBottom (F := Ideal) x6 (ix2 l j) = _
  rw [degreeCol_apply, biasRow_apply]
  simp only [gatheredSum_apply, weightTop_apply, weightBottom_apply, edgeRows_eq_ref]
  obtain ⟨r0, hr0⟩ : ∃ r : S50000x128.Idx → ℝ, ∀ i, x0 i = (r i : EReal) := ⟨fun i => (h0 i).choose, fun i => (h0 i).choose_spec⟩
  obtain ⟨r6, hr6⟩ : ∃ r : S256x128.Idx → ℝ, ∀ i, x6 i = (r i : EReal) := ⟨fun i => (h6 i).choose, fun i => (h6 i).choose_spec⟩
  obtain ⟨r7, hr7⟩ : ∃ r : S128.Idx → ℝ, ∀ i, x7 i = (r i : EReal) := ⟨fun i => (h7 i).choose, fun i => (h7 i).choose_spec⟩
  have hu := isReal_edgeRows x0 x1 x2 x4 x5 h0 h4 h5
  obtain ⟨ru, hru⟩ : ∃ r : S800000x128.Idx → ℝ, ∀ i, val_main_v20 (F := Ideal) x0 x1 x2 x4 x5 i = (r i : EReal) :=
    ⟨fun i => (hu i).choose, fun i => (hu i).choose_spec⟩
  simp only [hru, hr0, hr6, hr7, ofBits_zero, ofBits_one]
  exact (Cert.SetConv.message_sum (lands x1 p) (fun l => r0 (ix2 p l)) (fun l => r6 (ix2 (⟨l.val, by omega⟩ : Fin 256) j))
    (fun l => r6 (ix2 (⟨128 + l.val, by omega⟩ : Fin 256) j)) (r7 (ix1 j)) (fun e l => ru (ix2 e l))).symm

end Cert.SetConv.Bridge

end
-- ==== Proof.FiniteArgs.lean ====
/-
  Under the finiteness precondition every float argument array holds only real numbers.

  The precondition is a conjunction, over the float arguments, of the predicate "every entry x
  has |x| < +∞", each conjunct a reduction by the logical and of a pointwise comparison. At the
  exact instance the entries are extended reals, |x| is max x (-x), and the bound is the top
  element: an extended real whose absolute value is below the top element is neither infinity,
  so it is a real number.
-/
import proofs.«164495_j4355096839068_2_alg».proof.Proof.Gen.Pre_finite_inputs
import proofs.«164495_j4355096839068_2_alg».proof.Proof.LibRealness
import proofs.«164495_j4355096839068_2_alg».proof.Defs
import Idealize.ShloMosaic.Lib.ReduceAll

noncomputable section

namespace Cert.SetConv.Finite

open Idealize.ShloMosaic
open Cert.RealOps

/-- The word of the positive infinity denotes the top element. -/
theorem ofBits_inf : Ideal.ofBits .f32 0x7F800000#32 = (⊤ : EReal) := by
  simp [Ideal.ofBits, Ideal.ieee]

/-- An extended real whose absolute value compares strictly below the top element is a real. -/
theorem exists_real_of_abs_lt_top (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | coe r => exact ⟨r, rfl⟩
  | top => simp at hlt

/-- The index type of the rank-0 shape has one element. -/
instance subsingleton_rank0_idx : Subsingleton Cert.Pre_finite_inputs.S_.Idx := ⟨fun a b => funext fun d => d.elim0⟩

/-- If the reduction by "and", over all axes, of the pointwise test |x| < +∞ is 1, then every entry is a real. -/
theorem isReal_of_all_abs_lt_inf {S : Shape} {axes : List (Fin S.rank)}
    (dims : Fin Cert.Pre_finite_inputs.S_.rank → Fin S.rank)
    (hb : Cert.Pre_finite_inputs.S_.BroadcastsInDim S dims)
    (hr : S.ReducesTo axes Cert.Pre_finite_inputs.S_) (hu : 0 < Cert.Pre_finite_inputs.S_.numel)
    (a : FVec Ideal S .f32) (init : IVec Cert.Pre_finite_inputs.S_ 1) (j : Cert.Pre_finite_inputs.S_.Idx)
    (e : Host.reduce IntOp.andi
          (cmpf .olt (Host.absf a) (broadcastInDim S dims hb (constant Cert.Pre_finite_inputs.S_ .f32 0x7F800000#32)))
          init hr hu j = 1#1) :
    IsReal a := by
  intro i
  have hi := Host.reduce_andi_all _ init hr hu j e i
  exact exists_real_of_abs_lt_top (a i) hi

open Cert.Pre_finite_inputs in
/-- Under the finiteness precondition each of the eight float arguments holds only real numbers. -/
theorem args_real [Cert.Pre_finite_inputs.Facts]
    (a0 : FVec Ideal S50000x128 .f32) (a1 a2 : IVec S800000 32) (a3 : FVec Ideal S50000x128 .f32)
    (a4 : FVec Ideal S128x128 .f32) (a5 : FVec Ideal S128 .f32) (a6 : FVec Ideal S256x128 .f32)
    (a7 : FVec Ideal S128 .f32) (a8 : FVec Ideal S128x128 .f32) (a9 : FVec Ideal S128 .f32)
    (h : Cert.Pre_finite_inputs.fn (F := Ideal) a0 a1 a2 a3 a4 a5 a6 a7 a8 a9 = fun _ => 1#1) :
    IsReal a0 ∧ IsReal a3 ∧ IsReal a4 ∧ IsReal a5 ∧ IsReal a6 ∧ IsReal a7 ∧ IsReal a8 ∧ IsReal a9 := by
  have h0 := congrFun h (fun d => d.elim0)
  dsimp only [Cert.Pre_finite_inputs.fn, Cert.Pre_finite_inputs.fn_part1, Cert.Pre_finite_inputs.fn_part2,
    andi] at h0
  simp only [IntOp.andi_eq_one] at h0
  obtain ⟨⟨⟨⟨⟨⟨⟨e0, e3⟩, e4⟩, e5⟩, e6⟩, e7⟩, e8⟩, e9⟩ := h0
  exact ⟨isReal_of_all_abs_lt_inf _ _ _ _ a0 _ _ e0, isReal_of_all_abs_lt_inf _ _ _ _ a3 _ _ e3,
    isReal_of_all_abs_lt_inf _ _ _ _ a4 _ _ e4, isReal_of_all_abs_lt_inf _ _ _ _ a5 _ _ e5,
    isReal_of_all_abs_lt_inf _ _ _ _ a6 _ _ e6, isReal_of_all_abs_lt_inf _ _ _ _ a7 _ _ e7,
    isReal_of_all_abs_lt_inf _ _ _ _ a8 _ _ e8, isReal_of_all_abs_lt_inf _ _ _ _ a9 _ _ e9⟩

/-- The same, read off the precondition of the kernel's exact reading, on every device. -/
theorem args_real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (S := Cert.Pre_finite_inputs.S50000x128) (m ((c.tc : Thread Cert.KernelIdeal.nD Cert.KernelIdeal.τ).loc Cert.KernelIdeal.main_arg0))
    ∧ IsReal (S := Cert.Pre_finite_inputs.S50000x128) (m ((c.tc : Thread Cert.KernelIdeal.nD Cert.KernelIdeal.τ).loc Cert.KernelIdeal.main_arg3))
    ∧ IsReal (S := Cert.Pre_finite_inputs.S128x128) (m ((c.tc : Thread Cert.KernelIdeal.nD Cert.KernelIdeal.τ).loc Cert.KernelIdeal.main_arg4))
    ∧ IsReal (S := Cert.Pre_finite_inputs.S128) (m ((c.tc : Thread Cert.KernelIdeal.nD Cert.KernelIdeal.τ).loc Cert.KernelIdeal.main_arg5))
    ∧ IsReal (S := Cert.Pre_finite_inputs.S256x128) (m ((c.tc : Thread Cert.KernelIdeal.nD Cert.KernelIdeal.τ).loc Cert.KernelIdeal.main_arg6))
    ∧ IsReal (S := Cert.Pre_finite_inputs.S128) (m ((c.tc : Thread Cert.KernelIdeal.nD Cert.KernelIdeal.τ).loc Cert.KernelIdeal.main_arg7))
    ∧ IsReal (S := Cert.Pre_finite_inputs.S128x128) (m ((c.tc : Thread Cert.KernelIdeal.nD Cert.KernelIdeal.τ).loc Cert.KernelIdeal.main_arg8))
    ∧ IsReal (S := Cert.Pre_finite_inputs.S128) (m ((c.tc : Thread Cert.KernelIdeal.nD Cert.KernelIdeal.τ).loc Cert.KernelIdeal.main_arg9)) :=
  args_real _ _ _ _ _ _ _ _ _ _ (h c)

end Cert.SetConv.Finite
-- ==== Proof.lean ====
/-
  A hypergraph set convolution in two rounds — gather vertex features to the incidence entries, apply a layer, scatter-add
  to the hyperedges; gather back, apply a layer to the joined rows, scatter-add to the vertices; mix with a residual and
  apply a last layer — against its plain reference, on the extended reals.

  The reference applies the middle layer per incidence entry: with `W2 = [W2a; W2b]`,
  `Xv[p] = ∑_{e lands on p} (X[p] · W2a + u[e] · W2b + b2)`, where `u` are the hyperedge rows gathered back to the
  entries. The kernel applies it per vertex: `Xv[p] = deg[p] · (X[p] · W2a + b2) + (∑_{e lands on p} u[e]) · W2b`,
  with `deg[p]` the number of entries landing on `p`. The two agree for real numbers, and every quantity is real
  because the float arguments are finite (at infinities a product does not distribute over a sum, so the
  precondition is used). Everything before the middle layer (the first dense layer, both gathers, the first
  scatter-add) and after it (the mix and the last dense layer) is the same function on both sides.

  The kernel's side: its run with the result named (`KernelRun`), the two regions' whole-array values (`DenseRegion`,
  `FusedRegion`), the host operations between them read back to the arguments (`KernelOperands`, `KernelValue`).
  The reference's side: its generated run, its last stages (`RefTail`) and its vertex message at an index (`RefMessage`).
  The law joining them is `MessageSum`, applied in `MessageBridge`; finiteness of the arguments is `FiniteArgs`.
-/
import proofs.«164495_j4355096839068_2_alg».proof.Defs
import proofs.«164495_j4355096839068_2_alg».proof.Proof.Gen.Kernel
import proofs.«164495_j4355096839068_2_alg».proof.Proof.Gen.Kernel.Skeleton
import proofs.«164495_j4355096839068_2_alg».proof.Proof.Gen.Kernel.Launch
import proofs.«164495_j4355096839068_2_alg».proof.Proof.Gen.Kernel.Points
import proofs.«164495_j4355096839068_2_alg».proof.Proof.Gen.Kernel.Frame
import proofs.«164495_j4355096839068_2_alg».proof.Proof.Gen.KernelIdeal
import proofs.«164495_j4355096839068_2_alg».proof.Proof.Gen.KernelIdeal.Skeleton
import proofs.«164495_j4355096839068_2_alg».proof.Proof.Gen.KernelIdeal.Launch
import proofs.«164495_j4355096839068_2_alg».proof.Proof.Gen.KernelIdeal.Points
import proofs.«164495_j4355096839068_2_alg».proof.Proof.Gen.KernelIdeal.Frame
import proofs.«164495_j4355096839068_2_alg».proof.Proof.Gen.ReferenceIdeal
import proofs.«164495_j4355096839068_2_alg».proof.Proof.Gen.ReferenceIdeal.Run
import proofs.«164495_j4355096839068_2_alg».proof.Proof.Gen.ReferenceIdeal.Read
import proofs.«164495_j4355096839068_2_alg».proof.Proof.Gen.Pre_finite_inputs
import proofs.«164495_j4355096839068_2_alg».proof.Proof.KernelValue
import proofs.«164495_j4355096839068_2_alg».proof.Proof.RefTail
import proofs.«164495_j4355096839068_2_alg».proof.Proof.MessageBridge
import proofs.«164495_j4355096839068_2_alg».proof.Proof.FiniteArgs
import Idealize.ShloMosaic.Adequacy
import Idealize.ShloMosaic.Init

noncomputable section

namespace Cert.Proof

open Idealize.ShloMosaic Idealize.SL.Sem

/-- The three programs run, fault-free, and leave their arguments as launched. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments, finite, both idealized programs end with the same result: the kernel's
    is `KValue.result`, and the reference's composed term is the same array — the dense layer of the mix of a vertex
    message and the residual, the two messages equal by `Bridge.message_eq_ref`. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  obtain ⟨h0, h3, h4, h5, h6, h7, h8, h9⟩ := Cert.SetConv.Finite.args_real_of_pre m hpre c
  rw [a0, a1, a2, a3, a4, a5, a6, a7, a8, a9]
  refine (Cert.ReferenceIdeal.Read.val_main_v44_eq (F := Ideal) _ _ _ _ _ _ _ _ _ _).trans ?_
  rw [Cert.ReferenceIdeal.RefValue.result_is_dense_mix, ← Cert.SetConv.Bridge.biasRow_eq_ref,
    ← Cert.SetConv.Bridge.message_eq_ref _ _ _ _ _ _ _ h0 h4 h5 h6 h7]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
